-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x1x1024 : Shape := ⟨4, ![128, 256, 1, 1024]⟩
abbrev S128x1024 : Shape := ⟨2, ![128, 1024]⟩
abbrev S_ : Shape := ⟨0, ![]⟩

class Facts : Prop where
  bcast_S_S128x256x1x1024 : S_.BroadcastsInDim S128x256x1x1024 (![] : Fin 0 → Fin S128x256x1x1024.rank)
  reducesTo_S128x256x1x1024_S_d0_1_2_3 : S128x256x1x1024.ReducesTo [0, 1, 2, 3] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S128x256x1x1024 .f32) (main_arg1 : FVec F S128x256x1x1024 .f32) (main_arg2 : IVec S128x1024 32) : IVec S_ 1 :=
  let main_v0 : FVec F S128x256x1x1024 .f32 := Host.absf main_arg0
  let main_cst : FVec F S_ .f32 := constant S_ .f32 0x7F800000#32
  let main_v1 : FVec F S128x256x1x1024 .f32 := broadcastInDim S128x256x1x1024 ![] bcast_S_S128x256x1x1024 main_cst
  let main_v2 : IVec S128x256x1x1024 1 := cmpf .olt main_v0 main_v1
  let main_c : IVec S_ 1 := constantI S_ 1 1#1
  let main_v3 : IVec S_ 1 := (fun x v => Host.reduce IntOp.andi x v reducesTo_S128x256x1x1024_S_d0_1_2_3 h_S_) main_v2 main_c
  let main_v4 : FVec F S128x256x1x1024 .f32 := Host.absf main_arg1
  let main_cst_0 : FVec F S_ .f32 := constant S_ .f32 0x7F800000#32
  let main_v5 : FVec F S128x256x1x1024 .f32 := broadcastInDim S128x256x1x1024 ![] bcast_S_S128x256x1x1024 main_cst_0
  let main_v6 : IVec S128x256x1x1024 1 := cmpf .olt main_v4 main_v5
  let main_c_1 : IVec S_ 1 := constantI S_ 1 1#1
  let main_v7 : IVec S_ 1 := (fun x v => Host.reduce IntOp.andi x v reducesTo_S128x256x1x1024_S_d0_1_2_3 h_S_) main_v6 main_c_1
  let main_v8 : IVec S_ 1 := andi main_v3 main_v7
  let main_c_2 : IVec S_ 32 := constantI S_ 32 0#32
  let main_v9 : IVec S128x1024 32 := broadcastInDim S128x1024 ![] bcast_S_S128x1024 main_c_2
  let main_v10 : IVec S128x1024 1 := cmpi .sge main_arg2 main_v9
  let main_c_3 : IVec S_ 1 := constantI S_ 1 1#1
  let main_v11 : IVec S_ 1 := (fun x v => Host.reduce IntOp.andi x v reducesTo_S128x1024_S_d0_1 h_S_) main_v10 main_c_3
  let main_v12 : IVec S_ 1 := andi main_v8 main_v11
  let main_c_4 : IVec S_ 32 := constantI S_ 32 256#32
  let main_v13 : IVec S128x1024 32 := broadcastInDim S128x1024 ![] bcast_S_S128x1024 main_c_4
  let main_v14 : IVec S128x1024 1 := cmpi .slt main_arg2 main_v13
  let main_c_5 : IVec S_ 1 := constantI S_ 1 1#1
  let main_v15 : IVec S_ 1 := (fun x v => Host.reduce IntOp.andi x v reducesTo_S128x1024_S_d0_1 h_S_) main_v14 main_c_5
  fn_part1 (F := F) main_v12 main_v15
-- ==== Kernel.lean ====
abbrev S128x256x1x1024 : Shape := ⟨4, ![128, 256, 1, 1024]⟩
abbrev S128x1024 : Shape := ⟨2, ![128, 1024]⟩
abbrev S128x256x1024 : Shape := ⟨3, ![128, 256, 1024]⟩
abbrev S8x128x1024 : Shape := ⟨3, ![8, 128, 1024]⟩
abbrev S8x1024 : Shape := ⟨2, ![8, 1024]⟩
abbrev S8x1x1024 : Shape := ⟨3, ![8, 1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S128x256x1x1024, .f32⟩
  | .hbm, ⟨1, _⟩ => ⟨S128x256x1x1024, .f32⟩
  | .hbm, ⟨2, _⟩ => ⟨S128x1024, .i32⟩
  | .hbm, ⟨3, _⟩ => ⟨S128x256x1024, .f32⟩
  | .hbm, ⟨4, _⟩ => ⟨S128x256x1024, .f32⟩
  | .hbm, ⟨5, _⟩ => ⟨S128x256x1024, .f32⟩
  | .hbm, ⟨6, _⟩ => ⟨S128x256x1x1024, .f32⟩
  | .local _ .vmem, ⟨0, _⟩ => ⟨S8x128x1024, .f32⟩
  | .local _ .vmem, ⟨1, _⟩ => ⟨S8x128x1024, .f32⟩
  | .local _ .vmem, ⟨2, _⟩ => ⟨S8x128x1024, .f32⟩
  | .local _ .vmem, ⟨3, _⟩ => ⟨S8x128x1024, .f32⟩
  | .local _ .vmem, ⟨4, _⟩ => ⟨S8x1024, .i32⟩
  | .local _ .vmem, ⟨5, _⟩ => ⟨S8x1024, .i32⟩
  | .local _ .vmem, ⟨6, _⟩ => ⟨S8x128x1024, .f32⟩
  | .local _ .vmem, ⟨7, _⟩ => ⟨S8x128x1024, .f32⟩
  | _, _ => ⟨S128x256x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S128x256x1x1024_S128x256x1024 : S128x256x1x1024.ShapeCasts S128x256x1024
  inb_S8x1024_S8x1024_0_0 : ∀ a, (![0, 0] : Fin 2 → Nat) a + S8x1024.size a ≤ S8x1024.size a
  h_S8x1024 : 0 < S8x1024.numel
  shapeCasts_S8x1024_S8x1x1024 : S8x1024.ShapeCasts S8x1x1024
  shapeCasts_S8x1x1024_S8x1x1024 : S8x1x1024.ShapeCasts S8x1x1024
  broadcasts_S8x1x1024_S8x128x1024 : S8x1x1024.Broadcasts S8x128x1024
  iota_S8x128x1024_d1_w32 : S8x128x1024.Iotas .tc 32 [1]
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S8x128x1024 : S8x128x1024.ShapeCasts S8x128x1024
  bcast_S128x256x1024_S128x256x1x1024_0_1_3 : S128x256x1024.BroadcastsInDim S128x256x1x1024 (![0, 1, 3] : Fin 3 → Fin S128x256x1x1024.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S128x256x1024.size a
  hwx0_0 : ∀ i : grid0.Coords, EltTy.bits .f32 = 32 ∨ (Rect.block (s := S128x256x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1024.size a ≤ S128x256x1024.size a
  hwx0_1 : ∀ i : grid0.Coords, EltTy.bits .f32 = 32 ∨ (Rect.block (s := S128x256x1024) S8x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S128x1024.size a
  hwx0_2 : ∀ i : grid0.Coords, EltTy.bits .i32 = 32 ∨ (Rect.block (s := S128x1024) S8x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x1024.size a ≤ S128x256x1024.size a
  hwx0_3 : ∀ i : grid0.Coords, EltTy.bits .f32 = 32 ∨ (Rect.block (s := S128x256x1024) S8x128x1024.size (cc0_transform_3 i) (hinb0_3 i)).WholeWords (EltTy.packing .f32)

variable [Facts₀]

abbrev win0_0 : Pipeline.Window sig grid0 :=
  Pipeline.Window.ofSpec (Memref.whole main_v0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x256x1x1024 : Shape := ⟨4, ![128, 256, 1, 1024]⟩
abbrev S128x1024 : Shape := ⟨2, ![128, 1024]⟩
abbrev S_ : Shape := ⟨0, ![]⟩
abbrev S128x1x1x1024 : Shape := ⟨4, ![128, 1, 1, 1024]⟩
abbrev S128x1x1024x1 : Shape := ⟨4, ![128, 1, 1024, 1]⟩
abbrev S1 : Shape := ⟨1, ![1]⟩
abbrev S1x1x1x1 : Shape := ⟨4, ![1, 1, 1, 1]⟩
abbrev S128x1x1024 : Shape := ⟨3, ![128, 1, 1024]⟩
abbrev S128 : Shape := ⟨1, ![128]⟩
abbrev S128x1 : Shape := ⟨2, ![128, 1]⟩
abbrev S1024 : Shape := ⟨1, ![1024]⟩
abbrev S1x1024 : Shape := ⟨2, ![1, 1024]⟩
abbrev S128x1024x1 : Shape := ⟨3, ![128, 1024, 1]⟩
abbrev S128x1024x4 : Shape := ⟨3, ![128, 1024, 4]⟩

abbrev nBuf : Space → Nat
  | .hbm => 73
  | .vmem => 0
  | .smem => 0
  | _ => 0

abbrev bufTy : (tb : Table) → Fin (tcTables nBuf tb) → BufTy
  | .hbm, ⟨0, _⟩ => ⟨S128x256x1x1024, .f32⟩
  | .hbm, ⟨1, _⟩ => ⟨S128x256x1x1024, .f32⟩
  | .hbm, ⟨2, _⟩ => ⟨S128x1024, .i32⟩
  | .hbm, ⟨3, _⟩ => ⟨S_, .f32⟩
  | .hbm, ⟨4, _⟩ => ⟨S128x256x1x1024, .f32⟩
  | .hbm, ⟨5, _⟩ => ⟨S128x256x1x1024, .f32⟩
  | .hbm, ⟨6, _⟩ => ⟨S_, .f32⟩
  | .hbm, ⟨7, _⟩ => ⟨S128x256x1x1024, .f32⟩
  | .hbm, ⟨8, _⟩ => ⟨S128x256x1x1024, .f32⟩
  | .hbm, ⟨9, _⟩ => ⟨S_, .f32⟩
  | .hbm, ⟨10, _⟩ => ⟨S128x256x1x1024, .f32⟩
  | .hbm, ⟨11, _⟩ => ⟨S128x256x1x1024, .f32⟩
  | .hbm, ⟨12, _⟩ => ⟨S128x1x1x1024, .i32⟩
  | .hbm, ⟨13, _⟩ => ⟨S_, .i32⟩
  | .hbm, ⟨14, _⟩ => ⟨S128x1x1x1024, .i32⟩
  | .hbm, ⟨15, _⟩ => ⟨S128x1x1x1024, .i1⟩
  | .hbm, ⟨16, _⟩ => ⟨S_, .i32⟩
  | .hbm, ⟨17, _⟩ => ⟨S128x1x1x1024, .i32⟩
  | .hbm, ⟨18, _⟩ => ⟨S128x1x1x1024, .i32⟩
  | .hbm, ⟨19, _⟩ => ⟨S128x1x1x1024, .i32⟩
  | .hbm, ⟨20, _⟩ => ⟨S128x1x1024x1, .i32⟩
  | .hbm, ⟨21, _⟩ => ⟨S1, .i32⟩
  | .hbm, ⟨22, _⟩ => ⟨S_, .i32⟩
  | .hbm, ⟨23, _⟩ => ⟨S128x1x1024x1, .i32⟩
  | .hbm, ⟨24, _⟩ => ⟨S128x1x1024x1, .i1⟩
  | .hbm, ⟨25, _⟩ => ⟨S1x1x1x1, .i32⟩
  | .hbm, ⟨26, _⟩ => ⟨S128x1x1024x1, .i32⟩
  | .hbm, ⟨27, _⟩ => ⟨S128x1x1024x1, .i1⟩
  | .hbm, ⟨28, _⟩ => ⟨S128x1x1024x1, .i1⟩
  | .hbm, ⟨29, _⟩ => ⟨S_, .i1⟩
  | .hbm, ⟨30, _⟩ => ⟨S128x1x1024, .i1⟩
  | .hbm, ⟨31, _⟩ => ⟨S128x1x1x1024, .f32⟩
  | .hbm, ⟨32, _⟩ => ⟨S128x1x1x1024, .i1⟩
  | .hbm, ⟨33, _⟩ => ⟨S_, .f32⟩
  | .hbm, ⟨34, _⟩ => ⟨S128x1x1x1024, .f32⟩
  | .hbm, ⟨35, _⟩ => ⟨S128x1x1x1024, .f32⟩
  | .hbm, ⟨36, _⟩ => ⟨S128x1024, .f32⟩
  | .hbm, ⟨37, _⟩ => ⟨S128, .i32⟩
  | .hbm, ⟨38, _⟩ => ⟨S128x1, .i32⟩
  | .hbm, ⟨39, _⟩ => ⟨S1024, .i32⟩
  | .hbm, ⟨40, _⟩ => ⟨S1x1024, .i32⟩
  | .hbm, ⟨41, _⟩ => ⟨S_, .i32⟩
  | .hbm, ⟨42, _⟩ => ⟨S128x1, .i32⟩
  | .hbm, ⟨43, _⟩ => ⟨S128x1, .i1⟩
  | .hbm, ⟨44, _⟩ => ⟨S_, .i32⟩
  | .hbm, ⟨45, _⟩ => ⟨S128x1, .i32⟩
  | .hbm, ⟨46, _⟩ => ⟨S128x1, .i32⟩
  | .hbm, ⟨47, _⟩ => ⟨S128x1, .i32⟩
  | .hbm, ⟨48, _⟩ => ⟨S_, .i32⟩
  | .hbm, ⟨49, _⟩ => ⟨S128x1024, .i32⟩
  | .hbm, ⟨50, _⟩ => ⟨S128x1024, .i1⟩
  | .hbm, ⟨51, _⟩ => ⟨S_, .i32⟩
  | .hbm, ⟨52, _⟩ => ⟨S128x1024, .i32⟩
  | .hbm, ⟨53, _⟩ => ⟨S128x1024, .i32⟩
  | .hbm, ⟨54, _⟩ => ⟨S128x1024, .i32⟩
  | .hbm, ⟨55, _⟩ => ⟨S_, .i32⟩
  | .hbm, ⟨56, _⟩ => ⟨S1x1024, .i32⟩
  | .hbm, ⟨57, _⟩ => ⟨S1x1024, .i1⟩
  | .hbm, ⟨58, _⟩ => ⟨S_, .i32⟩
  | .hbm, ⟨59, _⟩ => ⟨S1x1024, .i32⟩
  | .hbm, ⟨60, _⟩ => ⟨S1x1024, .i32⟩
  | .hbm, ⟨61, _⟩ => ⟨S1x1024, .i32⟩
  | .hbm, ⟨62, _⟩ => ⟨S128x1024, .i32⟩
  | .hbm, ⟨63, _⟩ => ⟨S_, .i32⟩
  | .hbm, ⟨64, _⟩ => ⟨S128x1024, .i32⟩
  | .hbm, ⟨65, _⟩ => ⟨S128x1024, .i32⟩
  | .hbm, ⟨66, _⟩ => ⟨S128x1024, .i32⟩
  | .hbm, ⟨67, _⟩ => ⟨S128x1024x1, .i32⟩
  | .hbm, ⟨68, _⟩ => ⟨S128x1024x1, .i32⟩
  | .hbm, ⟨69, _⟩ => ⟨S128x1024x1, .i32⟩
  | .hbm, ⟨70, _⟩ => ⟨S128x1024x1, .i32⟩
  | .hbm, ⟨71, _⟩ => ⟨S128x1024x4, .i32⟩
  | .hbm, ⟨72, _⟩ => ⟨S128x256x1x1024, .f32⟩
  | _, _ => ⟨S128x256x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_5 : Ref sig .tc := ⟨.hbm, 55, rfl⟩
abbrev main_v23 : Ref sig .tc := ⟨.hbm, 56, rfl⟩
abbrev main_v24 : Ref sig .tc := ⟨.hbm, 57, rfl⟩
abbrev main_c_6 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_7 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩

abbrev nD : Nat := 1
abbrev τ : Topo := Topo.v7x

variable {F : FTy → Type} [FloatOps F]

class Facts₀ : Prop where
  bcast_S_S128x256x1x1024 : S_.BroadcastsInDim S128x256x1x1024 (![] : Fin 0 → Fin S128x256x1x1024.rank)
  bcast_S128x1024_S128x1x1x1024_0_3 : S128x1024.BroadcastsInDim S128x1x1x1024 (![0, 3] : Fin 2 → Fin S128x1x1x1024.rank)
  bcast_S_S128x1x1x1024 : S_.BroadcastsInDim S128x1x1x1024 (![] : Fin 0 → Fin S128x1x1x1024.rank)
  shapeCasts_S128x1x1x1024_S128x1x1024x1 : S128x1x1x1024.ShapeCasts S128x1x1024x1
  bcast_S_S128x1x1024x1 : S_.BroadcastsInDim S128x1x1024x1 (![] : Fin 0 → Fin S128x1x1024x1.rank)
  bcast_S1_S1x1x1x1_3 : S1.BroadcastsInDim S1x1x1x1 (![3] : Fin 1 → Fin S1x1x1x1.rank)
  bcast_S1x1x1x1_S128x1x1024x1_0_1_2_3 : S1x1x1x1.BroadcastsInDim S128x1x1024x1 (![0, 1, 2, 3] : Fin 4 → Fin S128x1x1024x1.rank)
  reducesTo_S128x1x1024x1_S128x1x1024_d3 : S128x1x1024x1.ReducesTo [3] S128x1x1024
  h_S_ : 0 < S_.numel
  bcast_S128x1x1024_S128x1x1x1024_0_1_3 : S128x1x1024.BroadcastsInDim S128x1x1x1024 (![0, 1, 3] : Fin 3 → Fin S128x1x1x1024.rank)
  shapeCasts_S128x1x1x1024_S128x1024 : S128x1x1x1024.ShapeCasts S128x1024
  bcast_S128_S128x1_0 : S128.BroadcastsInDim S128x1 (![0] : Fin 1 → Fin S128x1.rank)
  bcast_S1024_S1x1024_1 : S1024.BroadcastsInDim S1x1024 (![1] : Fin 1 → Fin S1x1024.rank)
  bcast_S_S128x1 : S_.BroadcastsInDim S128x1 (![] : Fin 0 → Fin S128x1.rank)
  bcast_S_S128x1024 : S_.BroadcastsInDim S128x1024 (![] : Fin 0 → Fin S128x1024.rank)
  bcast_S_S1x1024 : S_.BroadcastsInDim S1x1024 (![] : Fin 0 → Fin S1x1024.rank)
  bcast_S128x1_S128x1024_0_1 : S128x1.BroadcastsInDim S128x1024 (![0, 1] : Fin 2 → Fin S128x1024.rank)
  bcast_S1x1024_S128x1024_0_1 : S1x1024.BroadcastsInDim S128x1024 (![0, 1] : Fin 2 → Fin S128x1024.rank)
  bcast_S128x1024_S128x1024x1_0_1 : S128x1024.BroadcastsInDim S128x1024x1 (![0, 1] : Fin 2 → Fin S128x1024x1.rank)
  concatenates_S128x1024x1_S128x1024x1_S128x1024x1_S128x1024x1_S128x1024x4_d2 : Shape.Concatenates [S128x1024x1, S128x1024x1, S128x1024x1, S128x1024x1] S128x1024x4 2
  gather_S128x256x1x1024_S128x1x1024x1_S128x1x1x1024_2_1_03_02_1_3_1111_wf : GatherDims.WF S128x256x1x1024 S128x1x1024x1 S128x1x1x1024 [2] [1] [0, 3] [1] [0, 2] 3 ![1, 1, 1, 1]
  scatter_S128x256x1x1024_S128x1024x4_S128x1024_n_0123_0123_2_wf : ScatterDims.WF S128x256x1x1024 S128x1024x4 S128x1024 [] [0, 1, 2, 3] [0, 1, 2, 3] 2

variable [Facts₀]

def gather_S128x256x1x1024_S128x1x1024x1_S128x1x1x1024_2_1_03_02_1_3_1111 : GatherDims S128x256x1x1024 S128x1x1024x1 S128x1x1x1024 where
  offsetDims := [2]
  collapsedSliceDims := [1]
  operandBatchingDims := [0, 3]
  startIndicesBatchingDims := [0, 2]
  startIndexMap := [1]
  indexVectorDim := 3
  sliceSizes := ![1, 1, 1, 1]
  wf := gather_S128x256x1x1024_S128x1x1024x1_S128x1x1x1024_2_1_03_02_1_3_1111_wf
def scatter_S128x256x1x1024_S128x1024x4_S128x1024_n_0123_0123_2 : ScatterDims S128x256x1x1024 S128x1024x4 S128x1024 where
  updateWindowDims := []
  insertedWindowDims := [0, 1, 2, 3]
  scatterDimsToOperandDims := [0, 1, 2, 3]
  indexVectorDim := 2
  wf := scatter_S128x256x1x1024_S128x1024x4_S128x1024_n_0123_0123_2_wf

class Facts : Prop extends Facts₀ where

variable [Facts]
-- ==== Proof.KernelBlock.lean ====
/-
  What the kernel body computes, element by element.

  At grid point `(g0, g1)` the body holds an `[8, 128, 1024]` block of `x` and of `u` and the `[8, 1024]` block of the
  index array for the same eight batches. Element `(p, r, q)` of what it stores is
  `x + (if idx (p, q) = r + 128·g1 then (u·2 − 1)·γ else 0)`: the index block is laid along the channel axis, the
  channel counter is the lane iota plus the block's channel offset, and everything else is pointwise.
-/
import proofs.«122675_j30674656428480_1_alg».proof.Proof.Gen.KernelIdeal.Skeleton
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Idealize.ShloMosaic.Pipeline

variable {F : FTy → Type} [FloatOps F]

/-- The perturbation of one element: `(u·2 − 1)·γ`, the three constants as the program's literals. -/
def pert (u : F .f32) : F .f32 :=
  FloatOps.mulf (FloatOps.subf (FloatOps.mulf u (FloatOps.ofBits .f32 0x40000000#32)) (FloatOps.ofBits .f32 0x3F800000#32))
    (FloatOps.ofBits .f32 0x3E4CCCCD#32)

/-- The index block laid along the channel axis reads, at `(p, r, q)`, the index of batch `p` and position `q`. -/
theorem idx_along_channels (x2 : IVec S8x1024 32) (p : Fin 8) (r : Fin 128) (q : Fin 1024) :
    broadcastTo S8x128x1024 (shapeCast S8x1x1024 x2 Facts₀.shapeCasts_S8x1024_S8x1x1024) Facts₀.broadcasts_S8x1x1024_S8x128x1024 (ix3 p r q)
      = x2 (ix2 p q) := by
  refine (broadcastTo_apply _ _ (ix3 p r q) (ix3 p (0 : Fin 1) q) (fun a => ?_)).trans ?_
  · match a with
    | ⟨0, _⟩ => show p.val = if (8 : Nat) = 1 then 0 else p.val; rw [if_neg (by decide)]
    | ⟨1, _⟩ => show 0 = if (1 : Nat) = 1 then 0 else r.val; rw [if_pos rfl]
    | ⟨2, _⟩ => show q.val = if (1024 : Nat) = 1 then 0 else q.val; rw [if_neg (by decide)]
  · exact shapeCast_apply x2 _ (ix3 p (0 : Fin 1) q) (ix2 p q) (by
      rewrite [Shape.rowMajor_val_two, Shape.rowMajor_val_three]
      show p.val * 1024 + q.val = (p.val * 1 + 0) * 1024 + q.val
      omega)

/-- The channel counter: lane `r` of channel block `g1` is channel `128·g1 + r`, as a 32-bit word. -/
theorem channel_word : ∀ (g1 : Fin 2) (r : Fin 128),
    IntOp.addi (BitVec.ofNat 32 r.val) (Scalar.muli (BitVec.ofNat 32 g1.val) 128#32) = BitVec.ofNat 32 (g1.val * 128 + r.val) := by
  decide +kernel

/-- THE BODY'S STORED VALUE AT AN ELEMENT. -/
theorem pay_apply (g : grid0.Coords) (x2 : Vec F S8x1024 .i32) (x1 x0 : Vec F S8x128x1024 .f32)
    (p : Fin 8) (r : Fin 128) (q : Fin 1024) :
    k0_pay1 g x2 x1 x0 (ix3 p r q)
      = FloatOps.addf (x0 (ix3 p r q))
          (Scalar.select (IntOp.cmpi .eq (x2 (ix2 p q)) (BitVec.ofNat 32 ((g 1).val * 128 + r.val)))
            (pert (x1 (ix3 p r q))) (FloatOps.ofBits .f32 0x00000000#32)) := by
  unfold k0_pay1
  simp only [shapeCast_self]
  show FloatOps.addf (x0 (ix3 p r q))
      (Scalar.select (IntOp.cmpi .eq
          (broadcastTo S8x128x1024 (shapeCast S8x1x1024 x2 Facts₀.shapeCasts_S8x1024_S8x1x1024) Facts₀.broadcasts_S8x1x1024_S8x128x1024 (ix3 p r q))
          (IntOp.addi (iota .tc S8x128x1024 32 [1] Facts₀.iota_S8x128x1024_d1_w32 (ix3 p r q)) (Scalar.muli (BitVec.ofNat 32 (g 1).val) 128#32)))
        (pert (x1 (ix3 p r q))) (FloatOps.ofBits .f32 0x00000000#32)) = _
  rw [idx_along_channels, iota_single_apply]
  show FloatOps.addf (x0 (ix3 p r q))
      (Scalar.select (IntOp.cmpi .eq (x2 (ix2 p q))
          (IntOp.addi (BitVec.ofNat 32 r.val) (Scalar.muli (BitVec.ofNat 32 (g 1).val) 128#32)))
        (pert (x1 (ix3 p r q))) (FloatOps.ofBits .f32 0x00000000#32)) = _
  rw [channel_word (g 1) r]

end Cert.KernelIdeal.Block

end
-- ==== Proof.KernelArray.lean ====
/-
  The kernel's output array as one function of the arrays the region finds.

  Grid point `t = (g0, g1)` writes block `(g0, g1, 0)` of the `[128, 256, 1024]` output: eight batches, 128 channels,
  all positions. Its blocks of `x` and `u` sit at the same place in their arrays, and its block of the index array is
  rows `8·g0 … 8·g0 + 7`. So what the point writes back is the restriction to its block of ONE whole-array function:
  at `(b, e, l)`, `x + (if idx (b, l) = e then (u·2 − 1)·γ else 0)` — the channel counter `128·g1 + r` of lane `r` is
  the channel's own coordinate. The 32 blocks tile the output, so after the run the output array is that function.
-/
import proofs.«122675_j30674656428480_1_alg».proof.Proof.FrameKernelIdeal
import proofs.«122675_j30674656428480_1_alg».proof.Proof.KernelBlock
import Idealize.ShloMosaic.Lib.Pipeline.Value
import Idealize.ShloMosaic.Lib.ValueIdx

set_option maxRecDepth 16384

noncomputable section

namespace Cert.KernelIdeal.Arr

open Cert.KernelIdeal Cert.KernelIdeal.Gen Cert.KernelIdeal.GenP Cert.KernelIdeal.Block
open Idealize.ShloMosaic Idealize.ShloMosaic.TcCoe Idealize.SL.Sem Idealize.ShloMosaic.ValueIdx
open Idealize.ShloMosaic.Pipeline (Dat)

variable {F : FTy → Type} [FloatOps F]

/-! ## The whole-array function -/

/-- The output at batch `b`, channel `e`, position `l`. -/
def Gat (a0 a1 : S128x256x1024.Idx → F .f32) (a2 : S128x1024.Idx → BitVec 32) (b : Fin 128) (e : Fin 256) (l : Fin 1024) : F .f32 :=
  FloatOps.addf (a0 (ix3 b e l))
    (Scalar.select (IntOp.cmpi .eq (a2 (ix2 b l)) (BitVec.ofNat 32 e.val)) (pert (a1 (ix3 b e l))) (FloatOps.ofBits .f32 0x00000000#32))

/-- The output array, index by index. -/
def G (a0 a1 : S128x256x1024.Idx → F .f32) (a2 : S128x1024.Idx → BitVec 32) : S128x256x1024.Idx → F .f32 := fun i =>
  Gat a0 a1 a2 ⟨(i 0).val, (i 0).isLt⟩ ⟨(i 1).val, (i 1).isLt⟩ ⟨(i 2).val, (i 2).isLt⟩

/-- What a point stores is `G` read through the block's place in the array, when the three input blocks are the input
    arrays read through their own places and the places agree. -/
theorem stored_eq (g : grid0.Coords) (x2 : Vec F S8x1024 .i32) (x1 x0 : Vec F S8x128x1024 .f32)
    (a0 a1 : S128x256x1024.Idx → F .f32) (a2 : S128x1024.Idx → BitVec 32)
    (e3 : S8x128x1024.Idx → S128x256x1024.Idx) (e2 : S8x1024.Idx → S128x1024.Idx)
    (h0 : ∀ y, x0 y = a0 (e3 y)) (h1 : ∀ y, x1 y = a1 (e3 y)) (h2 : ∀ y, x2 y = a2 (e2 y))
    (hb : ∀ (p : Fin 8) (r : Fin 128) (q : Fin 1024), ((e2 (ix2 p q)) 0).val = ((e3 (ix3 p r q)) 0).val)
    (hl : ∀ (p : Fin 8) (r : Fin 128) (q : Fin 1024), ((e2 (ix2 p q)) 1).val = ((e3 (ix3 p r q)) 2).val)
    (hc : ∀ (p : Fin 8) (r : Fin 128) (q : Fin 1024), ((e3 (ix3 p r q)) 1).val = (g 1).val * 128 + r.val)
    (y : S8x128x1024.Idx) :
    k0_pay1 g x2 x1 x0 y = G a0 a1 a2 (e3 y) := by
  obtain ⟨p, r, q, rfl⟩ : ∃ (p : Fin 8) (r : Fin 128) (q : Fin 1024), y = ix3 p r q := ⟨y 0, y 1, y 2, eq_ix3 y⟩
  rw [pay_apply, h0, h1, h2]
  unfold G Gat
  have ei : e3 (ix3 p r q) = ix3 (⟨((e3 (ix3 p r q)) 0).val, ((e3 (ix3 p r q)) 0).isLt⟩ : Fin 128)
      (⟨((e3 (ix3 p r q)) 1).val, ((e3 (ix3 p r q)) 1).isLt⟩ : Fin 256) (⟨((e3 (ix3 p r q)) 2).val, ((e3 (ix3 p r q)) 2).isLt⟩ : Fin 1024) := by
    funext a; match a with | ⟨0, _⟩ => rfl | ⟨1, _⟩ => rfl | ⟨2, _⟩ => rfl
  have e2i : e2 (ix2 p q) = ix2 (⟨((e3 (ix3 p r q)) 0).val, ((e3 (ix3 p r q)) 0).isLt⟩ : Fin 128)
      (⟨((e3 (ix3 p r q)) 2).val, ((e3 (ix3 p r q)) 2).isLt⟩ : Fin 1024) := by
    funext a; refine Fin.ext ?_
    match a with
    | ⟨0, _⟩ => exact hb p r q
    | ⟨1, _⟩ => exact hl p r q
  rw [e2i, ← ei, ← hc p r q]

variable (m : (ℓ : Loc nD τ sig) → Buf (Elt F) ℓ) (ρ : Dev nD → PrngReg)

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the blocks of `x` and `u` move with the output's, the index block
    follows the output's batch block, and the output's channel block is the point's second grid coordinate. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = win0_3.index t (2 : Fin 3)
    ∧ win0_1.index t (0 : Fin 3) = win0_3.index t (0 : Fin 3) ∧ win0_1.index t (1 : Fin 3) = win0_3.index t (1 : Fin 3)
    ∧ win0_1.index t (2 : Fin 3) = win0_3.index t (2 : Fin 3)
    ∧ win0_2.index t (0 : Fin 2) = win0_3.index t (0 : Fin 3) ∧ win0_2.index t (1 : Fin 2) = 0
    ∧ win0_3.index t (2 : Fin 3) = 0 ∧ win0_3.index t (1 : Fin 3) = (grid0.coords t 1).val
    ∧ win0_3.index t (0 : Fin 3) ≤ 15 ∧ win0_3.index t (1 : Fin 3) ≤ 1 :=
  (by decide +kernel : ∀ t : Fin grid0.N, _)

/-- Every block of the output is some point's. -/
theorem idx_onto : ∀ (q0 : Fin 16) (q1 : Fin 2), ∃ t : Fin cfg0.N, win0_3.index t = ![q0.val, q1.val, 0] :=
  (by decide +kernel : ∀ (q0 : Fin 16) (q1 : Fin 2), ∃ t : Fin grid0.N, win0_3.index t = ![q0.val, q1.val, 0])

/-- WHAT POINT `t` WRITES BACK is block `t` of `G` of the arrays as the region finds them. -/
theorem flushed_eq (c : Dev nD) (t : Fin cfg0.N) :
    (dats m 0 c).flushed 3 t
      = ((cfg0.win 3).blk t).view.read (Elt F) (G (V m c main_v0) (V m c main_v1) (V m c main_arg2)) := by
  show (cfg0.win 3).cut (grid0.coords t) ((dats m 0 c).after 3 t) = _
  rw [after0_3]
  unfold out0_3
  rw [View.canon_unit_zero hz3]
  simp only [View.ld_unit_zero (S := S8x128x1024) hz3, View.ld_unit_zero (S := S8x1024) hz2]
  obtain ⟨f00, f01, f02, f10, f11, f12, f20, f21, f32, f31, -, -⟩ := idx_facts t
  funext j
  refine stored_eq (grid0.coords t) (iblk m c 2 t) (iblk m c 1 t) (iblk m c 0 t) (V m c main_v0) (V m c main_v1) (V m c main_arg2)
    ((cfg0.win 3).blk t).view.emb ((cfg0.win 2).blk t).view.emb ?_ ?_ ?_ ?_ ?_ ?_ j
  · intro y
    show V m c main_v0 (((cfg0.win 0).blk t).view.emb y) = V m c main_v0 (((cfg0.win 3).blk t).view.emb y)
    refine congrArg _ (funext fun a => Fin.ext ?_)
    match a with
    | ⟨0, _⟩ => show win0_0.index t (0 : Fin 3) * 8 + 1 * (y 0).val = win0_3.index t (0 : Fin 3) * 8 + 1 * (y 0).val; omega
    | ⟨1, _⟩ => show win0_0.index t (1 : Fin 3) * 128 + 1 * (y 1).val = win0_3.index t (1 : Fin 3) * 128 + 1 * (y 1).val; omega
    | ⟨2, _⟩ => show win0_0.index t (2 : Fin 3) * 1024 + 1 * (y 2).val = win0_3.index t (2 : Fin 3) * 1024 + 1 * (y 2).val; omega
  · intro y
    show V m c main_v1 (((cfg0.win 1).blk t).view.emb y) = V m c main_v1 (((cfg0.win 3).blk t).view.emb y)
    refine congrArg _ (funext fun a => Fin.ext ?_)
    match a with
    | ⟨0, _⟩ => show win0_1.index t (0 : Fin 3) * 8 + 1 * (y 0).val = win0_3.index t (0 : Fin 3) * 8 + 1 * (y 0).val; omega
    | ⟨1, _⟩ => show win0_1.index t (1 : Fin 3) * 128 + 1 * (y 1).val = win0_3.index t (1 : Fin 3) * 128 + 1 * (y 1).val; omega
    | ⟨2, _⟩ => show win0_1.index t (2 : Fin 3) * 1024 + 1 * (y 2).val = win0_3.index t (2 : Fin 3) * 1024 + 1 * (y 2).val; omega
  · intro y
    rfl
  · intro p r q
    show win0_2.index t (0 : Fin 2) * 8 + 1 * p.val = win0_3.index t (0 : Fin 3) * 8 + 1 * p.val
    omega
  · intro p r q
    show win0_2.index t (1 : Fin 2) * 1024 + 1 * q.val = win0_3.index t (2 : Fin 3) * 1024 + 1 * q.val
    omega
  · intro p r q
    show win0_3.index t (1 : Fin 3) * 128 + 1 * r.val = (grid0.coords t 1).val * 128 + r.val
    omega

/-! ## The blocks tile the output -/

/-- An index of the output is in point `t`'s block iff each coordinate is in the block's range on its axis. -/
theorem mem_blk (t : Fin cfg0.N) (i : S128x256x1024.Idx) :
    i ∈ ((cfg0.win 3).blk t).view.set ↔ ∀ a : Fin 3, win0_3.index t a * S8x128x1024.size a ≤ (i a).val
      ∧ (i a).val < win0_3.index t a * S8x128x1024.size a + S8x128x1024.size a := by
  show i ∈ ((View.whole main_v2).slice (win0_3.rect t)).set ↔ _
  rw [View.set_slice_whole, Rect.mem_set_unit]
  exact Iff.rfl

/-- Every index of the output is in some writing point's block. -/
theorem cover (i : S128x256x1024.Idx) :
    ∃ t : Fin cfg0.N, (cfg0.win 3).flush t = true ∧ i ∈ ((cfg0.win 3).blk t).view.set := by
  have hi0 : (i 0).val < 128 := (i 0).isLt
  have hi1 : (i 1).val < 256 := (i 1).isLt
  have hi2 : (i 2).val < 1024 := (i 2).isLt
  obtain ⟨t, ht⟩ := idx_onto ⟨(i 0).val / 8, by omega⟩ ⟨(i 1).val / 128, by omega⟩
  have q0 : win0_3.index t (0 : Fin 3) = (i 0).val / 8 := congrFun ht 0
  have q1 : win0_3.index t (1 : Fin 3) = (i 1).val / 128 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 128 ≤ (i 1).val ∧ (i 1).val < win0_3.index t (1 : Fin 3) * 128 + 128; omega
  | ⟨2, _⟩ => show win0_3.index t (2 : Fin 3) * 1024 ≤ (i 2).val ∧ (i 2).val < win0_3.index t (2 : Fin 3) * 1024 + 1024; omega

/-- THE OUTPUT ARRAY after the run is `G` of the arrays as the region finds them. -/
theorem final (c : Dev nD) :
    (dats m 0 c).arrAt 3 cfg0.N = G (V m c main_v0) (V m c main_v1) (V m c main_arg2) :=
  (dats m 0 c).arrAt_eq_of_cover 3 (G (V m c main_v0) (V m c main_v1) (V m c main_arg2))
    (fun t _ => flushed_eq m c t) cover

end Cert.KernelIdeal.Arr

end
-- ==== Proof.KernelRun.lean ====
/-
  The kernel's program, read at its result.

  Around the region the program only re-lays arrays: before it, `x` and `u` drop their unit axis
  (`[128, 256, 1, 1024] → [128, 256, 1024]`); after it, the region's output gets the unit axis back. So the program's
  result is the unit axis re-inserted into the whole-array function of the output, at the two re-laid arguments and
  the index array; the three arguments end as launched.
-/
import proofs.«122675_j30674656428480_1_alg».proof.Proof.FrameKernelIdeal
import proofs.«122675_j30674656428480_1_alg».proof.Proof.KernelArray
import Idealize.ShloMosaic.Lib.Pipeline.Value
import Idealize.ShloMosaic.Lib.StableHlo.Run

set_option maxRecDepth 16384

noncomputable section

namespace Cert.KernelIdeal.Run

open Cert.KernelIdeal Cert.KernelIdeal.Gen Cert.KernelIdeal.GenP Cert.KernelIdeal.Arr
open Idealize.ShloMosaic Idealize.ShloMosaic.TcCoe Idealize.SL.Sem Idealize.ShloMosaic.StableHlo
open Idealize.ShloMosaic.Pipeline (Dat)

variable {F : FTy → Type} [FloatOps F]

/-- What the program returns, as a function of its three arguments. -/
def KOut (x0 x1 : (⟨S128x256x1x1024, .f32⟩ : BufTy).Contents (Elt F)) (x2 : (⟨S128x1024, .i32⟩ : BufTy).Contents (Elt F)) :
    (⟨S128x256x1x1024, .f32⟩ : BufTy).Contents (Elt F) :=
  broadcastInDim S128x256x1x1024 ![0, 1, 3] Facts₀.bcast_S128x256x1024_S128x256x1x1024_0_1_3
    (G (shapeCast S128x256x1024 x0 Facts₀.shapeCasts_S128x256x1x1024_S128x256x1024)
      (shapeCast S128x256x1024 x1 Facts₀.shapeCasts_S128x256x1x1024_S128x256x1024) x2)

variable (m : (ℓ : Loc nD τ sig) → Buf (Elt F) ℓ) (ρ : Dev nD → PrngReg)

/-- The region finds `x` without its unit axis. -/
theorem V_v0 (c : Dev nD) :
    V m c main_v0 = shapeCast S128x256x1024 (m ((c : Thread nD τ).loc main_arg0)) Facts₀.shapeCasts_S128x256x1x1024_S128x256x1024 := by
  show StableHlo.after hostOps0 (fun b => m (c, b)) (Proc.devRef .tc main_v0) = _
  after_results
  rfl

/-- The region finds `u` without its unit axis. -/
theorem V_v1 (c : Dev nD) :
    V m c main_v1 = shapeCast S128x256x1024 (m ((c : Thread nD τ).loc main_arg1)) Facts₀.shapeCasts_S128x256x1x1024_S128x256x1024 := by
  show StableHlo.after hostOps0 (fun b => m (c, b)) (Proc.devRef .tc main_v1) = _
  after_results
  rfl

/-- The program's result after the lines that follow the region. -/
theorem tail_eq (c : Dev nD) :
    Pipeline.afterTail₀ cfgs (dats m) 0 (V0 m) [hostOps1] c main_v3
      = KOut (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  show broadcastInDim S128x256x1x1024 ![0, 1, 3] _
      (Pipeline.withArrays spec0 c (V0 m c) (fun w => (dats m 0 c).arrAt w cfg0.N) (Proc.devRef .tc (Pipeline.arrRef spec0 3))) = _
  rw [Pipeline.withArrays_arr spec0 launch0.win.arr_inj c _ _ 3, final m c, V_v0, V_v1, V_main_arg2]
  rfl

/-- Every weakly fair execution of the kernel's program terminates with its result at `KOut` of the arguments' launch
    contents, and the arguments unchanged. -/
theorem run : θ_run defs (onTc (τ := τ) (main (F := F))) ⟨m, fun _ => 0, ρ⟩ fun r => ∀ c : Dev nD,
      r.2.mem ((c.tc : Thread nD τ).loc main_v3)
        = KOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Run

end
-- ==== Proof.LibFoldRead.lean ====
/-
  Reading a fold of host operations at a buffer, with two-operand results kept as an application.

  `StableHlo.after ops V` is the buffer contents after a line of host operations from contents `V`. The library reads such
  a fold at a buffer by one simplifier pass over the operations' result lemmas; a two-operand operation's result is its
  function applied to the two operands' contents, and when that function is a literal `fun a b => …` whose body puts the
  operands inside a dependent pair (a concatenation's list of shaped pieces) the pass substitutes them there and can no
  longer rewrite them. Here the same result is stated through `held2 f x y := f x y`, which the simplifier does not open:
  the operands stay ordinary arguments, and `held2` unfolds by definition when two readings are compared.
  Also: the fold over a concatenation of two lines is the fold of the second over the fold of the first.
-/
import Idealize.ShloMosaic.Lib.StableHlo.Run

namespace Idealize.ShloMosaic.StableHlo

variable {τ : Topo} {sig : RefSig} {Val : EltTy → Type}

/-- A two-argument function applied, as a constant the simplifier leaves closed. -/
def held2 {α β γ : Type} (f : α → β → γ) (x : α) (y : β) : γ := f x y

theorem held2_def {α β γ : Type} (f : α → β → γ) (x : α) (y : β) : held2 f x y = f x y := rfl

/-- A two-operand operation's result at its own result buffer: its function, kept closed, of the operands' contents. -/
theorem binary_result_held {a b y : Ref sig .tc} (f : a.ty.Contents Val → b.ty.Contents Val → y.ty.Contents Val) (ha hb hy)
    (F : Valuation τ sig Val) :
    (binary (τ := τ) a b y f ha hb hy).result F (no_index (Proc.devRef .tc y))
      = held2 f (F (Proc.devRef .tc a)) (F (Proc.devRef .tc b)) :=
  binary_result a b y f ha hb hy F

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Reads `after ops V (Proc.devRef .tc r)` for a literal line `ops` in one simplifier pass, as the library's
    `after_results_simp` does, with every two-operand result kept as `held2 f _ _`. -/
macro "fold_results" : tactic =>
  `(tactic| (simp (disch := decide) only [after_cons, after_nil,
      nullary_result', unary_result', binary_result_held, ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.RefRun.lean ====
/-
  The reference program's run, read at its result.

  The run leaves every buffer at the fold of the program's 70 operations over the launch contents. The fold is read
  here in seven stretches, each over an arbitrary starting valuation: the perturbation `(u·2 − 1)·γ` and the index
  array laid out for the take; the take itself in three parts (the index wrapped where negative; which indices name a
  channel; the gather, with NaN where the index names none); the taken values as a `[128, 1024]` array together with
  the three coordinate arrays of the scatter; those arrays given a trailing unit axis; and their join into index
  vectors with the scatter of the taken values into `x`. Composed, the result buffer holds the last stage of the
  operation-by-operation reading, as a function of the three arguments; the arguments themselves are never written.
-/
import proofs.«122675_j30674656428480_1_alg».proof.Proof.RefOps
import proofs.«122675_j30674656428480_1_alg».proof.Proof.RefRead
import proofs.«122675_j30674656428480_1_alg».proof.Proof.LibFoldRead

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## First stretch: the perturbation and the index array as `[128, 1, 1, 1024]` -/

theorem A_v5 (W : Valuation τ sig (Elt F)) :
    after opsA W (Proc.devRef .tc main_v5) = val_main_v5 (F := F) (W (Proc.devRef .tc main_arg1)) := by
  after_results_simp
  rfl

theorem A_v6 (W : Valuation τ sig (Elt F)) :
    after opsA W (Proc.devRef .tc main_v6) = val_main_v6 (F := F) (W (Proc.devRef .tc main_arg2)) := by
  after_results_simp
  rfl

theorem A_arg0 (W : Valuation τ sig (Elt F)) :
    after opsA W (Proc.devRef .tc main_arg0) = W (Proc.devRef .tc main_arg0) := by
  after_results_simp

theorem A_arg1 (W : Valuation τ sig (Elt F)) :
    after opsA W (Proc.devRef .tc main_arg1) = W (Proc.devRef .tc main_arg1) := by
  after_results_simp

theorem A_arg2 (W : Valuation τ sig (Elt F)) :
    after opsA W (Proc.devRef .tc main_arg2) = W (Proc.devRef .tc main_arg2) := by
  after_results_simp

/-! ## The take, first part: the index wrapped where negative, as `[128, 1, 1024, 1]` -/

theorem B1_c5 (W : Valuation τ sig (Elt F)) (x2 : (⟨S128x1024, .i32⟩ : BufTy).Contents (Elt F))
    (h6 : W (Proc.devRef .tc main_v6) = val_main_v6 (F := F) x2) :
    after opsB1 W (Proc.devRef .tc main_call0_v5) = val_main_call0_v5 (F := F) x2 := by
  after_results_simp
  rw [h6]
  rfl

theorem B1_v5 (W : Valuation τ sig (Elt F)) :
    after opsB1 W (Proc.devRef .tc main_v5) = W (Proc.devRef .tc main_v5) := by
  after_results_simp

theorem B1_arg0 (W : Valuation τ sig (Elt F)) :
    after opsB1 W (Proc.devRef .tc main_arg0) = W (Proc.devRef .tc main_arg0) := by
  after_results_simp

theorem B1_arg1 (W : Valuation τ sig (Elt F)) :
    after opsB1 W (Proc.devRef .tc main_arg1) = W (Proc.devRef .tc main_arg1) := by
  after_results_simp

theorem B1_arg2 (W : Valuation τ sig (Elt F)) :
    after opsB1 W (Proc.devRef .tc main_arg2) = W (Proc.devRef .tc main_arg2) := by
  after_results_simp

/-! ## The take, second part: which indices name a channel -/

theorem B2_c11 (W : Valuation τ sig (Elt F)) (x2 : (⟨S128x1024, .i32⟩ : BufTy).Contents (Elt F))
    (h5c : W (Proc.devRef .tc main_call0_v5) = val_main_call0_v5 (F := F) x2) :
    after opsB2 W (Proc.devRef .tc main_call0_v11) = val_main_call0_v11 (F := F) x2 := by
  after_results_simp
  rw [h5c]
  rfl

theorem B2_c5 (W : Valuation τ sig (Elt F)) :
    after opsB2 W (Proc.devRef .tc main_call0_v5) = W (Proc.devRef .tc main_call0_v5) := by
  after_results_simp

theorem B2_v5 (W : Valuation τ sig (Elt F)) :
    after opsB2 W (Proc.devRef .tc main_v5) = W (Proc.devRef .tc main_v5) := by
  after_results_simp

theorem B2_arg0 (W : Valuation τ sig (Elt F)) :
    after opsB2 W (Proc.devRef .tc main_arg0) = W (Proc.devRef .tc main_arg0) := by
  after_results_simp

theorem B2_arg1 (W : Valuation τ sig (Elt F)) :
    after opsB2 W (Proc.devRef .tc main_arg1) = W (Proc.devRef .tc main_arg1) := by
  after_results_simp

theorem B2_arg2 (W : Valuation τ sig (Elt F)) :
    after opsB2 W (Proc.devRef .tc main_arg2) = W (Proc.devRef .tc main_arg2) := by
  after_results_simp

/-! ## The take, third part: the gather, and NaN where the index names no channel -/

theorem B3_v7 (W : Valuation τ sig (Elt F)) (x1 : (⟨S128x256x1x1024, .f32⟩ : BufTy).Contents (Elt F)) (x2 : (⟨S128x1024, .i32⟩ : BufTy).Contents (Elt F))
    (h11 : W (Proc.devRef .tc main_call0_v11) = val_main_call0_v11 (F := F) x2)
    (h5c : W (Proc.devRef .tc main_call0_v5) = val_main_call0_v5 (F := F) x2)
    (h5 : W (Proc.devRef .tc main_v5) = val_main_v5 (F := F) x1) :
    after opsB3 W (Proc.devRef .tc main_v7) = val_main_v7 (F := F) x1 x2 := by
  after_results_simp
  rw [h11, h5c, h5]
  simp only [TRef.toBuf, TRef.ofBuf, cast_eq]
  rfl

theorem B3_arg0 (W : Valuation τ sig (Elt F)) :
    after opsB3 W (Proc.devRef .tc main_arg0) = W (Proc.devRef .tc main_arg0) := by
  after_results_simp

theorem B3_arg1 (W : Valuation τ sig (Elt F)) :
    after opsB3 W (Proc.devRef .tc main_arg1) = W (Proc.devRef .tc main_arg1) := by
  after_results_simp

theorem B3_arg2 (W : Valuation τ sig (Elt F)) :
    after opsB3 W (Proc.devRef .tc main_arg2) = W (Proc.devRef .tc main_arg2) := by
  after_results_simp

/-! ## The taken values as `[128, 1024]`, and the scatter's coordinate arrays -/

theorem C_v8 (W : Valuation τ sig (Elt F)) (x1 : (⟨S128x256x1x1024, .f32⟩ : BufTy).Contents (Elt F)) (x2 : (⟨S128x1024, .i32⟩ : BufTy).Contents (Elt F))
    (h7 : W (Proc.devRef .tc main_v7) = val_main_v7 (F := F) x1 x2) :
    after opsC W (Proc.devRef .tc main_v8) = val_main_v8 (F := F) x1 x2 := by
  after_results_simp
  rw [h7]
  rfl

theorem C_v17 (W : Valuation τ sig (Elt F)) :
    after opsC W (Proc.devRef .tc main_v17) = val_main_v17 (F := F) := by
  after_results_simp
  rfl

theorem C_v22 (W : Valuation τ sig (Elt F)) :
    after opsC W (Proc.devRef .tc main_v22) = val_main_v22 (F := F) (W (Proc.devRef .tc main_arg2)) := by
  after_results_simp
  rfl

theorem C_v27 (W : Valuation τ sig (Elt F)) :
    after opsC W (Proc.devRef .tc main_v27) = val_main_v27 (F := F) := by
  after_results_simp
  rfl

theorem C_arg0 (W : Valuation τ sig (Elt F)) :
    after opsC W (Proc.devRef .tc main_arg0) = W (Proc.devRef .tc main_arg0) := by
  after_results_simp

theorem C_arg1 (W : Valuation τ sig (Elt F)) :
    after opsC W (Proc.devRef .tc main_arg1) = W (Proc.devRef .tc main_arg1) := by
  after_results_simp

theorem C_arg2 (W : Valuation τ sig (Elt F)) :
    after opsC W (Proc.devRef .tc main_arg2) = W (Proc.devRef .tc main_arg2) := by
  after_results_simp

/-! ## The coordinate arrays, each `[128, 1024, 1]` -/

theorem D_v32 (W : Valuation τ sig (Elt F)) (h17 : W (Proc.devRef .tc main_v17) = val_main_v17 (F := F)) :
    after opsD W (Proc.devRef .tc main_v32) = val_main_v32 (F := F) := by
  after_results_simp
  rw [h17]
  rfl

theorem D_v33 (W : Valuation τ sig (Elt F)) (x2 : (⟨S128x1024, .i32⟩ : BufTy).Contents (Elt F))
    (h22 : W (Proc.devRef .tc main_v22) = val_main_v22 (F := F) x2) :
    after opsD W (Proc.devRef .tc main_v33) = val_main_v33 (F := F) x2 := by
  after_results_simp
  rw [h22]
  rfl

theorem D_v34 (W : Valuation τ sig (Elt F)) :
    after opsD W (Proc.devRef .tc main_v34) = val_main_v34 (F := F) := by
  after_results_simp
  rfl

theorem D_v35 (W : Valuation τ sig (Elt F)) (h27 : W (Proc.devRef .tc main_v27) = val_main_v27 (F := F)) :
    after opsD W (Proc.devRef .tc main_v35) = val_main_v35 (F := F) := by
  after_results_simp
  rw [h27]
  rfl

theorem D_v8 (W : Valuation τ sig (Elt F)) :
    after opsD W (Proc.devRef .tc main_v8) = W (Proc.devRef .tc main_v8) := by
  after_results_simp

theorem D_arg0 (W : Valuation τ sig (Elt F)) :
    after opsD W (Proc.devRef .tc main_arg0) = W (Proc.devRef .tc main_arg0) := by
  after_results_simp

theorem D_arg1 (W : Valuation τ sig (Elt F)) :
    after opsD W (Proc.devRef .tc main_arg1) = W (Proc.devRef .tc main_arg1) := by
  after_results_simp

theorem D_arg2 (W : Valuation τ sig (Elt F)) :
    after opsD W (Proc.devRef .tc main_arg2) = W (Proc.devRef .tc main_arg2) := by
  after_results_simp

/-! ## The index vectors and the scatter -/

/-- The scatter over index vectors joined from four coordinate arrays, as a function of its six operands. -/
def scat (x0 : (⟨S128x256x1x1024, .f32⟩ : BufTy).Contents (Elt F))
    (i32 i33 i34 i35 : (⟨S128x1024x1, .i32⟩ : BufTy).Contents (Elt F))
    (u : (⟨S128x1024, .f32⟩ : BufTy).Contents (Elt F)) : (⟨S128x256x1x1024, .f32⟩ : BufTy).Contents (Elt F) :=
  Host.scatterAdd scatter_S128x256x1x1024_S128x1024x4_S128x1024_n_0123_0123_2 x0
    (concatenate S128x1024x4 2 [⟨S128x1024x1, i32⟩, ⟨S128x1024x1, i33⟩, ⟨S128x1024x1, i34⟩, ⟨S128x1024x1, i35⟩]
      concatenates_S128x1024x1_S128x1024x1_S128x1024x1_S128x1024x1_S128x1024x4_d2) u

theorem val_main_v37_scat (x0 x1 : (⟨S128x256x1x1024, .f32⟩ : BufTy).Contents (Elt F)) (x2 : (⟨S128x1024, .i32⟩ : BufTy).Contents (Elt F)) :
    val_main_v37 (F := F) x0 x1 x2
      = scat x0 (val_main_v32 (F := F)) (val_main_v33 (F := F) x2) (val_main_v34 (F := F)) (val_main_v35 (F := F)) (val_main_v8 (F := F) x1 x2) := rfl

theorem E_v37 (W : Valuation τ sig (Elt F)) :
    after opsE W (Proc.devRef .tc main_v37)
      = scat (W (Proc.devRef .tc main_arg0)) (W (Proc.devRef .tc main_v32)) (W (Proc.devRef .tc main_v33))
          (W (Proc.devRef .tc main_v34)) (W (Proc.devRef .tc main_v35)) (W (Proc.devRef .tc main_v8)) := by
  after_results
  rfl

theorem E_arg0 (W : Valuation τ sig (Elt F)) :
    after opsE W (Proc.devRef .tc main_arg0) = W (Proc.devRef .tc main_arg0) := by
  after_results_simp

theorem E_arg1 (W : Valuation τ sig (Elt F)) :
    after opsE W (Proc.devRef .tc main_arg1) = W (Proc.devRef .tc main_arg1) := by
  after_results_simp

theorem E_arg2 (W : Valuation τ sig (Elt F)) :
    after opsE W (Proc.devRef .tc main_arg2) = W (Proc.devRef .tc main_arg2) := by
  after_results_simp

/-! ## The whole fold -/

/-- The result buffer after all 70 operations: the last stage, of the three arguments as the fold found them. -/
theorem fold_result (V : Valuation τ sig (Elt F)) :
    after (ops (F := F)) V (Proc.devRef .tc main_v37)
      = val_main_v37 (F := F) (V (Proc.devRef .tc main_arg0)) (V (Proc.devRef .tc main_arg1)) (V (Proc.devRef .tc main_arg2)) := by
  rw [ops_eq, after_append, after_append, after_append, after_append, after_append, after_append]
  have a0 := A_arg0 V
  have a2 := A_arg2 V
  have h5 := A_v5 V
  have h6 := A_v6 V
  have b1c5 := B1_c5 _ _ h6
  have b1v5 := (B1_v5 _).trans h5
  have b1a0 := (B1_arg0 _).trans a0
  have b1a2 := (B1_arg2 _).trans a2
  have b2c11 := B2_c11 _ _ b1c5
  have b2c5 := (B2_c5 _).trans b1c5
  have b2v5 := (B2_v5 _).trans b1v5
  have b2a0 := (B2_arg0 _).trans b1a0
  have b2a2 := (B2_arg2 _).trans b1a2
  have b3v7 := B3_v7 _ _ _ b2c11 b2c5 b2v5
  have b3a0 := (B3_arg0 _).trans b2a0
  have b3a2 := (B3_arg2 _).trans b2a2
  have cv8 := C_v8 _ _ _ b3v7
  have cv22 := (C_v22 _).trans (congrArg (val_main_v22 (F := F)) b3a2)
  have ca0 := (C_arg0 _).trans b3a0
  rw [E_v37, val_main_v37_scat, (D_arg0 _).trans ca0, (D_v8 _).trans cv8,
    D_v32 _ (C_v17 _), D_v33 _ _ cv22, D_v34 _, D_v35 _ (C_v27 _)]

theorem fold_arg0 (V : Valuation τ sig (Elt F)) :
    after (ops (F := F)) V (Proc.devRef .tc main_arg0) = V (Proc.devRef .tc main_arg0) := by
  rw [ops_eq, after_append, after_append, after_append, after_append, after_append, after_append]
  exact (E_arg0 _).trans ((D_arg0 _).trans ((C_arg0 _).trans ((B3_arg0 _).trans ((B2_arg0 _).trans ((B1_arg0 _).trans (A_arg0 V))))))

theorem fold_arg1 (V : Valuation τ sig (Elt F)) :
    after (ops (F := F)) V (Proc.devRef .tc main_arg1) = V (Proc.devRef .tc main_arg1) := by
  rw [ops_eq, after_append, after_append, after_append, after_append, after_append, after_append]
  exact (E_arg1 _).trans ((D_arg1 _).trans ((C_arg1 _).trans ((B3_arg1 _).trans ((B2_arg1 _).trans ((B1_arg1 _).trans (A_arg1 V))))))

theorem fold_arg2 (V : Valuation τ sig (Elt F)) :
    after (ops (F := F)) V (Proc.devRef .tc main_arg2) = V (Proc.devRef .tc main_arg2) := by
  rw [ops_eq, after_append, after_append, after_append, after_append, after_append, after_append]
  exact (E_arg2 _).trans ((D_arg2 _).trans ((C_arg2 _).trans ((B3_arg2 _).trans ((B2_arg2 _).trans ((B1_arg2 _).trans (A_arg2 V))))))

/-! ## The run -/

/-- Every weakly fair execution of the reference terminates with its result at the last stage of the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
        = val_main_v37 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v37).trans (fold_result _), (h c main_arg0).trans (fold_arg0 _),
      (h c main_arg1).trans (fold_arg1 _), (h c main_arg2).trans (fold_arg2 _)⟩) (run_fold m ρ)

end Cert.ReferenceIdeal.RefRun

end
-- ==== Proof.PreRange.lean ====
/-
  The precondition, decoded: every index names a channel.

  The precondition is the conjunction of four `jnp.all`s — `|x| < ∞`, `|u| < ∞`, `idx ≥ 0`, `idx < 256` — each a reduce by
  "and" over the whole array. That it is 1 says each comparison is 1 at every element; read as signed integers, every
  index lies in `[0, 256)`.
-/
import proofs.«122675_j30674656428480_1_alg».proof.Pre_finite_inputs
import proofs.«122675_j30674656428480_1_alg».proof.Proof.Gen.Pre_finite_inputs
import Idealize.ShloMosaic.Lib.ReduceAll
import Idealize.ShloMosaic.Lib.Affine
import Idealize.ShloMosaic.Lib.ValueIdx

noncomputable section

namespace Cert.Pre_finite_inputs.Range

open Cert.Pre_finite_inputs Cert.Pre_finite_inputs.Gen Idealize.ShloMosaic Idealize.ShloMosaic.ValueIdx

instance : Subsingleton S_.Idx := ⟨fun a b => funext fun d => d.elim0⟩

variable {F : FTy → Type} [FloatOps F]

/-- Where the precondition holds, every index is in `[0, 256)` as a signed integer. -/
theorem idx_in_range (x0 x1 : FVec F S128x256x1x1024 .f32) (x2 : IVec S128x1024 32)
    (h : Cert.Pre_finite_inputs.fn (F := F) x0 x1 x2 = fun _ => 1#1) :
    ∀ i, 0 ≤ (x2 i).toInt ∧ (x2 i).toInt < 256 := by
  have h1 := congrFun h ix0
  unfold Cert.Pre_finite_inputs.fn Cert.Pre_finite_inputs.fn_part1 at h1
  dsimp only at h1
  obtain ⟨h12, h15⟩ := IntOp.andi_eq_one.mp h1
  obtain ⟨-, h11⟩ := IntOp.andi_eq_one.mp h12
  intro i
  have a : IntOp.cmpi .sge (x2 i) 0#32 = 1#1 := Host.reduce_andi_all _ _ _ _ ix0 h11 i
  have b : IntOp.cmpi .slt (x2 i) 256#32 = 1#1 := Host.reduce_andi_all _ _ _ _ ix0 h15 i
  rw [IntOp.cmpi_sge, show (0#32 : BitVec 32).toInt = 0 from by decide] at a
  rw [IntOp.cmpi_slt, show (256#32 : BitVec 32).toInt = 256 from by decide] at b
  exact ⟨a, b⟩

end Cert.Pre_finite_inputs.Range

end
-- ==== Proof.LibPointScatter.lean ====
/-
  An accumulating scatter of single elements into a rank-4 array, read at an index.

  `Z.at[i0, i1, i2, i3].add(U)` with four index arrays of one common shape `[R1, R2]` lowers to a scatter whose index
  vectors have four components — one per axis of `Z : [A, B, C, D]` — and whose updates `U : [R1, R2]` carry no window:
  update `(p, q)` is added to the ONE element of `Z` its index vector names, and is dropped when that vector names no
  element of `Z`. Read at an index `i` the result is `Z i + ∑ p q, [the index vector of (p, q) is i] · U (p, q)`.

  When the first and last components of every index vector are the update's own two coordinates and the third is 0
  (`Z.at[arange[:, None], idx, 0, arange[None, :]].add(U)` on `Z : [B, E, 1, L]`), at most one update meets an element:
  at `(b, e, 0, l)` the result is `Z (b, e, 0, l) + [idx (b, l) = e] · U (b, l)`.
-/
import Idealize.ShloMosaic.Lib.ValueIdx

noncomputable section

open scoped BigOperators

namespace Cert.PointScatter

open Idealize.ShloMosaic Idealize.ShloMosaic.ValueIdx

section Dims

variable {A B C D R1 R2 w : Nat}

/-- The dimension numbers of `Z.at[i0, i1, i2, i3].add(U)` for `Z : [A, B, C, D]`, index vectors `[R1, R2, 4]` and
    updates `U : [R1, R2]`: every axis of `Z` is named by the index vector, and an update is a single element. -/
abbrev pointScatter (A B C D R1 R2 : Nat)
    (wf : ScatterDims.WF ⟨4, ![A, B, C, D]⟩ ⟨3, ![R1, R2, 4]⟩ ⟨2, ![R1, R2]⟩ [] [0, 1, 2, 3] [0, 1, 2, 3] 2) :
    ScatterDims ⟨4, ![A, B, C, D]⟩ ⟨3, ![R1, R2, 4]⟩ ⟨2, ![R1, R2]⟩ where
  updateWindowDims := []
  insertedWindowDims := [0, 1, 2, 3]
  scatterDimsToOperandDims := [0, 1, 2, 3]
  indexVectorDim := 2
  wf := wf

variable (wf : ScatterDims.WF ⟨4, ![A, B, C, D]⟩ ⟨3, ![R1, R2, 4]⟩ ⟨2, ![R1, R2]⟩ [] [0, 1, 2, 3] [0, 1, 2, 3] 2)

/-- Component 0 of the index vector of update `(p, q)` is where it starts on axis 0. -/
theorem start_eq0 (idx : IVec ⟨3, ![R1, R2, 4]⟩ w) (p : Fin R1) (q : Fin R2) :
    (pointScatter A B C D R1 R2 wf).start (ix2 p q) idx (0 : Fin 4) = (idx (ix3 p q (0 : Fin 4))).toInt := by
  have hmem : (0 : Fin 4) ∈ (pointScatter A B C D R1 R2 wf).scatterDimsToOperandDims :=
    (by decide : (0 : Fin 4) ∈ ([0, 1, 2, 3] : List (Fin 4)))
  unfold ScatterDims.start
  rw [dif_pos hmem]
  have hsi : (pointScatter A B C D R1 R2 wf).siIdx (ix2 p q)
      ⟨List.idxOf (0 : Fin 4) (pointScatter A B C D R1 R2 wf).scatterDimsToOperandDims, List.idxOf_lt_length_iff.2 hmem⟩
      = ix3 p q (0 : Fin 4) := by
    funext b; refine Fin.ext ?_
    match b with
    | ⟨0, _⟩ => rfl
    | ⟨1, _⟩ => rfl
    | ⟨2, _⟩ => rfl
  rw [hsi]

/-- Component 1 of the index vector of update `(p, q)` is where it starts on axis 1. -/
theorem start_eq1 (idx : IVec ⟨3, ![R1, R2, 4]⟩ w) (p : Fin R1) (q : Fin R2) :
    (pointScatter A B C D R1 R2 wf).start (ix2 p q) idx (1 : Fin 4) = (idx (ix3 p q (1 : Fin 4))).toInt := by
  have hmem : (1 : Fin 4) ∈ (pointScatter A B C D R1 R2 wf).scatterDimsToOperandDims :=
    (by decide : (1 : Fin 4) ∈ ([0, 1, 2, 3] : List (Fin 4)))
  unfold ScatterDims.start
  rw [dif_pos hmem]
  have hsi : (pointScatter A B C D R1 R2 wf).siIdx (ix2 p q)
      ⟨List.idxOf (1 : Fin 4) (pointScatter A B C D R1 R2 wf).scatterDimsToOperandDims, List.idxOf_lt_length_iff.2 hmem⟩
      = ix3 p q (1 : Fin 4) := by
    funext b; refine Fin.ext ?_
    match b with
    | ⟨0, _⟩ => rfl
    | ⟨1, _⟩ => rfl
    | ⟨2, _⟩ => rfl
  rw [hsi]

/-- Component 2 of the index vector of update `(p, q)` is where it starts on axis 2. -/
theorem start_eq2 (idx : IVec ⟨3, ![R1, R2, 4]⟩ w) (p : Fin R1) (q : Fin R2) :
    (pointScatter A B C D R1 R2 wf).start (ix2 p q) idx (2 : Fin 4) = (idx (ix3 p q (2 : Fin 4))).toInt := by
  have hmem : (2 : Fin 4) ∈ (pointScatter A B C D R1 R2 wf).scatterDimsToOperandDims :=
    (by decide : (2 : Fin 4) ∈ ([0, 1, 2, 3] : List (Fin 4)))
  unfold ScatterDims.start
  rw [dif_pos hmem]
  have hsi : (pointScatter A B C D R1 R2 wf).siIdx (ix2 p q)
      ⟨List.idxOf (2 : Fin 4) (pointScatter A B C D R1 R2 wf).scatterDimsToOperandDims, List.idxOf_lt_length_iff.2 hmem⟩
      = ix3 p q (2 : Fin 4) := by
    funext b; refine Fin.ext ?_
    match b with
    | ⟨0, _⟩ => rfl
    | ⟨1, _⟩ => rfl
    | ⟨2, _⟩ => rfl
  rw [hsi]

/-- Component 3 of the index vector of update `(p, q)` is where it starts on axis 3. -/
theorem start_eq3 (idx : IVec ⟨3, ![R1, R2, 4]⟩ w) (p : Fin R1) (q : Fin R2) :
    (pointScatter A B C D R1 R2 wf).start (ix2 p q) idx (3 : Fin 4) = (idx (ix3 p q (3 : Fin 4))).toInt := by
  have hmem : (3 : Fin 4) ∈ (pointScatter A B C D R1 R2 wf).scatterDimsToOperandDims :=
    (by decide : (3 : Fin 4) ∈ ([0, 1, 2, 3] : List (Fin 4)))
  unfold ScatterDims.start
  rw [dif_pos hmem]
  have hsi : (pointScatter A B C D R1 R2 wf).siIdx (ix2 p q)
      ⟨List.idxOf (3 : Fin 4) (pointScatter A B C D R1 R2 wf).scatterDimsToOperandDims, List.idxOf_lt_length_iff.2 hmem⟩
      = ix3 p q (3 : Fin 4) := by
    funext b; refine Fin.ext ?_
    match b with
    | ⟨0, _⟩ => rfl
    | ⟨1, _⟩ => rfl
    | ⟨2, _⟩ => rfl
  rw [hsi]

/-- On axis `a` of the operand, update `(p, q)` starts at component `a` of its index vector, read signed and not
    clamped. -/
theorem start_eq (idx : IVec ⟨3, ![R1, R2, 4]⟩ w) (p : Fin R1) (q : Fin R2) (a : Fin 4) :
    (pointScatter A B C D R1 R2 wf).start (ix2 p q) idx a = (idx (ix3 p q a)).toInt := by
  match a with
  | ⟨0, _⟩ => exact start_eq0 wf idx p q
  | ⟨1, _⟩ => exact start_eq1 wf idx p q
  | ⟨2, _⟩ => exact start_eq2 wf idx p q
  | ⟨3, _⟩ => exact start_eq3 wf idx p q

/-- An update has no extent along any axis of the operand. -/
theorem window_eq (j : (⟨2, ![R1, R2]⟩ : Shape).Idx) (a : Fin 4) : (pointScatter A B C D R1 R2 wf).window j a = 0 := by
  unfold ScatterDims.window
  rw [dif_neg]
  show ¬ a ∈ (⟨4, ![A, B, C, D]⟩ : Shape).kept ([0, 1, 2, 3] : List (Fin 4))
  match a with
  | ⟨0, _⟩ => simp [Shape.kept]
  | ⟨1, _⟩ => simp [Shape.kept]
  | ⟨2, _⟩ => simp [Shape.kept]
  | ⟨3, _⟩ => simp [Shape.kept]

/-- WHERE AN UPDATE LANDS: update `(p, q)` lands on `i` exactly when its index vector is `i`, component by component. -/
theorem resultIdx_point_iff (idx : IVec ⟨3, ![R1, R2, 4]⟩ w) (p : Fin R1) (q : Fin R2) (i : (⟨4, ![A, B, C, D]⟩ : Shape).Idx) :
    (pointScatter A B C D R1 R2 wf).resultIdx? (ix2 p q) idx = some i
      ↔ ∀ a : Fin 4, (idx (ix3 p q a)).toInt = ((i a).val : Int) := by
  have hs : ∀ a, (pointScatter A B C D R1 R2 wf).start (ix2 p q) idx a
      + (((pointScatter A B C D R1 R2 wf).window (ix2 p q) a : Nat) : Int) = (idx (ix3 p q a)).toInt := by
    intro a; rw [start_eq, window_eq]; simp
  unfold ScatterDims.resultIdx?
  split
  · rename_i h
    rw [Option.some.injEq]
    constructor
    · intro hf a
      have e : ((pointScatter A B C D R1 R2 wf).start (ix2 p q) idx a
          + (((pointScatter A B C D R1 R2 wf).window (ix2 p q) a : Nat) : Int)).toNat = (i a).val :=
        congrArg Fin.val (congrFun hf a)
      have h0 := (h a).1
      rw [hs] at e h0
      omega
    · intro hn
      funext a
      refine Fin.ext ?_
      show ((pointScatter A B C D R1 R2 wf).start (ix2 p q) idx a
          + (((pointScatter A B C D R1 R2 wf).window (ix2 p q) a : Nat) : Int)).toNat = (i a).val
      rw [hs, hn a]; simp
  · rename_i h
    constructor
    · intro hf; cases hf
    · intro hn
      refine absurd (fun a => ?_) h
      rw [hs, hn a]
      have := (i a).isLt
      constructor <;> omega

/-- THE SCATTER READ AT AN INDEX: the operand's element plus every update whose index vector names it. -/
theorem scatterAdd_point_apply {φ : FTy} (x : FVec Ideal ⟨4, ![A, B, C, D]⟩ φ) (idx : IVec ⟨3, ![R1, R2, 4]⟩ w)
    (upd : FVec Ideal ⟨2, ![R1, R2]⟩ φ) (i : (⟨4, ![A, B, C, D]⟩ : Shape).Idx) :
    Host.scatterAdd (pointScatter A B C D R1 R2 wf) x idx upd i
      = x i + ∑ p : Fin R1, ∑ q : Fin R2,
          if (∀ a : Fin 4, (idx (ix3 p q a)).toInt = ((i a).val : Int)) then upd (ix2 p q) else 0 := by
  simp only [Host.scatterAdd, Ideal.hostScatterAdd_def, Ideal.hostScatterAdd]
  congr 1
  rw [Finset.sum_filter, sum_idx2]
  refine Finset.sum_congr rfl fun p _ => Finset.sum_congr rfl fun q _ => ?_
  by_cases hP : ∀ a : Fin 4, (idx (ix3 p q a)).toInt = ((i a).val : Int)
  · rw [if_pos hP, if_pos ((resultIdx_point_iff wf idx p q i).mpr hP)]
  · rw [if_neg hP, if_neg (fun h => hP ((resultIdx_point_iff wf idx p q i).mp h))]

end Dims

section Channel

variable {B E L w : Nat}

/-- ONE UPDATE PER ELEMENT: on `Z : [B, E, 1, L]`, when the index vector of update `(p, q)` is `(p, _, 0, q)`, the only
    update that can meet `(b, e, 0, l)` is `(b, l)`, and it does exactly when its second component is `e`. -/
theorem scatterAdd_channel_apply {φ : FTy}
    (wf : ScatterDims.WF ⟨4, ![B, E, 1, L]⟩ ⟨3, ![B, L, 4]⟩ ⟨2, ![B, L]⟩ [] [0, 1, 2, 3] [0, 1, 2, 3] 2)
    (x : FVec Ideal ⟨4, ![B, E, 1, L]⟩ φ) (idx : IVec ⟨3, ![B, L, 4]⟩ w) (upd : FVec Ideal ⟨2, ![B, L]⟩ φ)
    (h0 : ∀ p q, (idx (ix3 p q (0 : Fin 4))).toInt = (p.val : Int))
    (h2 : ∀ p q, (idx (ix3 p q (2 : Fin 4))).toInt = 0)
    (h3 : ∀ p q, (idx (ix3 p q (3 : Fin 4))).toInt = (q.val : Int))
    (b : Fin B) (e : Fin E) (z : Fin 1) (l : Fin L) :
    Host.scatterAdd (pointScatter B E 1 L B L wf) x idx upd (ix4 b e z l)
      = x (ix4 b e z l) + if (idx (ix3 b l (1 : Fin 4))).toInt = (e.val : Int) then upd (ix2 b l) else 0 := by
  rw [scatterAdd_point_apply]
  congr 1
  rw [Finset.sum_eq_single b (fun p _ hp => Finset.sum_eq_zero fun q _ => if_neg (fun hc => hp (Fin.ext (by
      have h : (p.val : Int) = (b.val : Int) := (h0 p q).symm.trans (hc 0)
      omega)))) (fun h => absurd (Finset.mem_univ _) h)]
  rw [Finset.sum_eq_single l (fun q _ hq => if_neg (fun hc => hq (Fin.ext (by
      have h : (q.val : Int) = (l.val : Int) := (h3 b q).symm.trans (hc 3)
      omega)))) (fun h => absurd (Finset.mem_univ _) h)]
  by_cases hP : (idx (ix3 b l (1 : Fin 4))).toInt = (e.val : Int)
  · rw [if_pos hP, if_pos]
    intro a
    match a with
    | ⟨0, _⟩ => exact h0 b l
    | ⟨1, _⟩ => exact hP
    | ⟨2, _⟩ =>
      show (idx (ix3 b l (2 : Fin 4))).toInt = ((z.val : Nat) : Int)
      rw [h2 b l]; have := z.isLt; omega
    | ⟨3, _⟩ => exact h3 b l
  · rw [if_neg hP, if_neg (fun hc => hP (hc 1))]

end Channel

end Cert.PointScatter

end
-- ==== Proof.LibBatchedTake.lean ====
/-
  Taking one channel per (batch, position) out of a rank-4 array, read at an index.

  `take_along_axis(X, idx[:, None, None, :], axis=1)` for `X : [B, E, 1, L]` lowers to a gather whose batch and position
  axes are batching axes (result element `(b, 0, 0, l)` reads row `b`, column `l` of `X`), whose channel axis is
  collapsed and named by the start index, and whose unit axis is the one offset axis. The start index is read signed
  and clamped into `[0, E − 1]`, as every start index of a gather is.
-/
import Idealize.ShloMosaic.Lib.ValueIdx

noncomputable section

namespace Cert.BatchedTake

open Idealize.ShloMosaic Idealize.ShloMosaic.ValueIdx

variable {B E L w : Nat}

/-- The dimension numbers of the take: operand `[B, E, 1, L]`, start indices `[B, 1, L, 1]`, result `[B, 1, 1, L]`. -/
abbrev channelTake (B E L : Nat)
    (wf : GatherDims.WF ⟨4, ![B, E, 1, L]⟩ ⟨4, ![B, 1, L, 1]⟩ ⟨4, ![B, 1, 1, L]⟩ [2] [1] [0, 3] [1] [0, 2] 3 ![1, 1, 1, 1]) :
    GatherDims ⟨4, ![B, E, 1, L]⟩ ⟨4, ![B, 1, L, 1]⟩ ⟨4, ![B, 1, 1, L]⟩ where
  offsetDims := [2]
  collapsedSliceDims := [1]
  operandBatchingDims := [0, 3]
  startIndicesBatchingDims := [0, 2]
  startIndexMap := [1]
  indexVectorDim := 3
  sliceSizes := ![1, 1, 1, 1]
  wf := wf

/-- The channel a start index names: the index read signed and clamped into `[0, E − 1]`. -/
def channelOf (hE : 0 < E) (idx : IVec ⟨4, ![B, 1, L, 1]⟩ w) (b : Fin B) (z : Fin 1) (l : Fin L) : Fin E :=
  ⟨min (idx (ix4 b z l (0 : Fin 1))).toInt.toNat (E - 1), by omega⟩

/-- THE TAKE READ AT `(b, z1, z2, l)`: the operand at batch `b`, the named channel, position `l`. -/
theorem gather_channel_apply {α : Type} (hE : 0 < E)
    (wf : GatherDims.WF ⟨4, ![B, E, 1, L]⟩ ⟨4, ![B, 1, L, 1]⟩ ⟨4, ![B, 1, 1, L]⟩ [2] [1] [0, 3] [1] [0, 2] 3 ![1, 1, 1, 1])
    (x : (⟨4, ![B, E, 1, L]⟩ : Shape).Idx → α) (idx : IVec ⟨4, ![B, 1, L, 1]⟩ w)
    (b : Fin B) (z1 z2 : Fin 1) (l : Fin L) :
    Host.gather (channelTake B E L wf) x idx (ix4 b z1 z2 l) = x (ix4 b (channelOf hE idx b z1 l) z2 l) := by
  unfold Host.gather
  congr 1
  funext a
  refine Fin.ext ?_
  match a with
  | ⟨0, _⟩ =>
    show (channelTake B E L wf).start (ix4 b z1 z2 l) idx 0 + (channelTake B E L wf).batchCoord (ix4 b z1 z2 l) 0
      + (channelTake B E L wf).offCoord (ix4 b z1 z2 l) 0 = b.val
    have hs : (channelTake B E L wf).start (ix4 b z1 z2 l) idx 0 = 0 :=
      GatherDims.start_batching _ _ _ _ (show (0 : Fin 4) ∈ (channelTake B E L wf).operandBatchingDims from (by decide : (0 : Fin 4) ∈ ([0, 3] : List (Fin 4))))
    have ho : (channelTake B E L wf).offCoord (ix4 b z1 z2 l) 0 = 0 :=
      GatherDims.offCoord_eq_zero _ _ _ (fun h => ((GatherDims.mem_sKept _ _).mp h).2 (show (0 : Fin 4) ∈ (channelTake B E L wf).operandBatchingDims from (by decide : (0 : Fin 4) ∈ ([0, 3] : List (Fin 4)))))
    have hb : (channelTake B E L wf).batchCoord (ix4 b z1 z2 l) 0 = b.val := by
      unfold GatherDims.batchCoord
      rw [dif_pos (show (0 : Fin 4) ∈ (channelTake B E L wf).operandBatchingDims from (by decide : (0 : Fin 4) ∈ ([0, 3] : List (Fin 4))))]
      rfl
    rw [hs, ho, hb]; omega
  | ⟨1, _⟩ =>
    show (channelTake B E L wf).start (ix4 b z1 z2 l) idx 1 + (channelTake B E L wf).batchCoord (ix4 b z1 z2 l) 1
      + (channelTake B E L wf).offCoord (ix4 b z1 z2 l) 1 = (channelOf hE idx b z1 l).val
    rw [GatherDims.batchCoord_eq_zero _ _ _ (show ¬ (1 : Fin 4) ∈ (channelTake B E L wf).operandBatchingDims from (by decide : ¬ (1 : Fin 4) ∈ ([0, 3] : List (Fin 4)))),
      GatherDims.offCoord_eq_zero _ _ _ (fun h => ((GatherDims.mem_sKept _ _).mp h).1 (show (1 : Fin 4) ∈ (channelTake B E L wf).collapsedSliceDims from (by decide : (1 : Fin 4) ∈ ([1] : List (Fin 4)))))]
    simp only [Nat.add_zero]
    unfold GatherDims.start
    rw [dif_pos (show (1 : Fin 4) ∈ (channelTake B E L wf).startIndexMap from (by decide : (1 : Fin 4) ∈ ([1] : List (Fin 4))))]
    have hsi : (channelTake B E L wf).siIdx (ix4 b z1 z2 l) ⟨List.idxOf (1 : Fin 4) (channelTake B E L wf).startIndexMap,
        List.idxOf_lt_length_iff.2 (show (1 : Fin 4) ∈ (channelTake B E L wf).startIndexMap from (by decide : (1 : Fin 4) ∈ ([1] : List (Fin 4))))⟩ = ix4 b z1 l (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨2, _⟩ =>
    show (channelTake B E L wf).start (ix4 b z1 z2 l) idx 2 + (channelTake B E L wf).batchCoord (ix4 b z1 z2 l) 2
      + (channelTake B E L wf).offCoord (ix4 b z1 z2 l) 2 = z2.val
    have hs : (channelTake B E L wf).start (ix4 b z1 z2 l) idx 2 = 0 := by
      unfold GatherDims.start
      rw [dif_neg (show ¬ (2 : Fin 4) ∈ (channelTake B E L wf).startIndexMap from (by decide : ¬ (2 : Fin 4) ∈ ([1] : List (Fin 4))))]
    have ho : (channelTake B E L wf).offCoord (ix4 b z1 z2 l) 2 = z2.val := by
      unfold GatherDims.offCoord
      rw [dif_pos (show (2 : Fin 4) ∈ (channelTake B E L wf).sKept from
        (GatherDims.mem_sKept _ _).mpr ⟨(show ¬ (2 : Fin 4) ∈ (channelTake B E L wf).collapsedSliceDims from (by decide : ¬ (2 : Fin 4) ∈ ([1] : List (Fin 4)))), (show ¬ (2 : Fin 4) ∈ (channelTake B E L wf).operandBatchingDims from (by decide : ¬ (2 : Fin 4) ∈ ([0, 3] : List (Fin 4))))⟩)]
      rfl
    rw [hs, ho, GatherDims.batchCoord_eq_zero _ _ _ (show ¬ (2 : Fin 4) ∈ (channelTake B E L wf).operandBatchingDims from (by decide : ¬ (2 : Fin 4) ∈ ([0, 3] : List (Fin 4))))]
    simp
  | ⟨3, _⟩ =>
    show (channelTake B E L wf).start (ix4 b z1 z2 l) idx 3 + (channelTake B E L wf).batchCoord (ix4 b z1 z2 l) 3
      + (channelTake B E L wf).offCoord (ix4 b z1 z2 l) 3 = l.val
    have hs : (channelTake B E L wf).start (ix4 b z1 z2 l) idx 3 = 0 :=
      GatherDims.start_batching _ _ _ _ (show (3 : Fin 4) ∈ (channelTake B E L wf).operandBatchingDims from (by decide : (3 : Fin 4) ∈ ([0, 3] : List (Fin 4))))
    have ho : (channelTake B E L wf).offCoord (ix4 b z1 z2 l) 3 = 0 :=
      GatherDims.offCoord_eq_zero _ _ _ (fun h => ((GatherDims.mem_sKept _ _).mp h).2 (show (3 : Fin 4) ∈ (channelTake B E L wf).operandBatchingDims from (by decide : (3 : Fin 4) ∈ ([0, 3] : List (Fin 4)))))
    have hb : (channelTake B E L wf).batchCoord (ix4 b z1 z2 l) 3 = l.val := by
      unfold GatherDims.batchCoord
      rw [dif_pos (show (3 : Fin 4) ∈ (channelTake B E L wf).operandBatchingDims from (by decide : (3 : Fin 4) ∈ ([0, 3] : List (Fin 4))))]
      rfl
    rw [hs, ho, hb]; omega

end Cert.BatchedTake

end
-- ==== Proof.LibJoin4.lean ====
/-
  Four arrays with a trailing unit axis joined along that axis, read at an index: `concatenate([x0, x1, x2, x3], axis=2)`
  for `xk : [A, B, 1]` is the `[A, B, 4]` array whose entry `(p, q, k)` is `xk (p, q, 0)` — the index vectors a
  four-coordinate scatter or gather reads. Also: a reduce by "and" of an all-ones array from the constant 1 is 1.
-/
import Idealize.ShloMosaic.Lib.Pipeline.Value
import Idealize.ShloMosaic.Lib.ValueIdx
import Idealize.ShloMosaic.Lib.ReduceAll

noncomputable section

namespace Cert.Join4

open Idealize.ShloMosaic Idealize.ShloMosaic.ValueIdx Idealize.ShloMosaic.Pipeline

variable {α : Type} {A B : Nat}

/-- The join's pieces: four arrays `[A, B, 1]`. -/
abbrev pieces (x0 x1 x2 x3 : (⟨3, ![A, B, 1]⟩ : Shape).Idx → α) : List ((s : Shape) × (s.Idx → α)) :=
  [⟨⟨3, ![A, B, 1]⟩, x0⟩, ⟨⟨3, ![A, B, 1]⟩, x1⟩, ⟨⟨3, ![A, B, 1]⟩, x2⟩, ⟨⟨3, ![A, B, 1]⟩, x3⟩]

private theorem hi_of (p : Fin A) (q : Fin B) (k : Fin 4) (hr : (⟨3, ![A, B, 1]⟩ : Shape).rank = (⟨3, ![A, B, 4]⟩ : Shape).rank) :
    ∀ b : Fin (⟨3, ![A, B, 1]⟩ : Shape).rank, b.cast hr ≠ (2 : Fin 3) →
      ((ix3 p q (0 : Fin 1)) b).val = ((ix3 p q k) (b.cast hr)).val := by
  intro b hb
  match b with
  | ⟨0, _⟩ => rfl
  | ⟨1, _⟩ => rfl
  | ⟨2, _⟩ => exact absurd rfl hb

theorem join4_0 (x0 x1 x2 x3 : (⟨3, ![A, B, 1]⟩ : Shape).Idx → α)
    (h : Shape.Concatenates ((pieces x0 x1 x2 x3).map (·.1)) ⟨3, ![A, B, 4]⟩ 2) (p : Fin A) (q : Fin B) :
    concatenate ⟨3, ![A, B, 4]⟩ 2 (pieces x0 x1 x2 x3) h (ix3 p q (0 : Fin 4)) = x0 (ix3 p q (0 : Fin 1)) :=
  concatenate_apply_piece (2 : Fin 3) (pieces x0 x1 x2 x3) h (ix3 p q (0 : Fin 4)) 0 (Nat.succ_pos 3) ⟨3, ![A, B, 1]⟩ x0 rfl rfl
    0 rfl (ix3 p q (0 : Fin 1)) (hi_of p q 0 rfl) rfl

theorem join4_1 (x0 x1 x2 x3 : (⟨3, ![A, B, 1]⟩ : Shape).Idx → α)
    (h : Shape.Concatenates ((pieces x0 x1 x2 x3).map (·.1)) ⟨3, ![A, B, 4]⟩ 2) (p : Fin A) (q : Fin B) :
    concatenate ⟨3, ![A, B, 4]⟩ 2 (pieces x0 x1 x2 x3) h (ix3 p q (1 : Fin 4)) = x1 (ix3 p q (0 : Fin 1)) :=
  concatenate_apply_piece (2 : Fin 3) (pieces x0 x1 x2 x3) h (ix3 p q (1 : Fin 4)) 1 (Nat.succ_lt_succ (Nat.succ_pos 2)) ⟨3, ![A, B, 1]⟩ x1 rfl rfl
    1 rfl (ix3 p q (0 : Fin 1)) (hi_of p q 1 rfl) rfl

theorem join4_2 (x0 x1 x2 x3 : (⟨3, ![A, B, 1]⟩ : Shape).Idx → α)
    (h : Shape.Concatenates ((pieces x0 x1 x2 x3).map (·.1)) ⟨3, ![A, B, 4]⟩ 2) (p : Fin A) (q : Fin B) :
    concatenate ⟨3, ![A, B, 4]⟩ 2 (pieces x0 x1 x2 x3) h (ix3 p q (2 : Fin 4)) = x2 (ix3 p q (0 : Fin 1)) :=
  concatenate_apply_piece (2 : Fin 3) (pieces x0 x1 x2 x3) h (ix3 p q (2 : Fin 4)) 2 (by omega : 2 < 4) ⟨3, ![A, B, 1]⟩ x2 rfl rfl
    2 rfl (ix3 p q (0 : Fin 1)) (hi_of p q 2 rfl) rfl

theorem join4_3 (x0 x1 x2 x3 : (⟨3, ![A, B, 1]⟩ : Shape).Idx → α)
    (h : Shape.Concatenates ((pieces x0 x1 x2 x3).map (·.1)) ⟨3, ![A, B, 4]⟩ 2) (p : Fin A) (q : Fin B) :
    concatenate ⟨3, ![A, B, 4]⟩ 2 (pieces x0 x1 x2 x3) h (ix3 p q (3 : Fin 4)) = x3 (ix3 p q (0 : Fin 1)) :=
  concatenate_apply_piece (2 : Fin 3) (pieces x0 x1 x2 x3) h (ix3 p q (3 : Fin 4)) 3 (by omega : 3 < 4) ⟨3, ![A, B, 1]⟩ x3 rfl rfl
    3 rfl (ix3 p q (0 : Fin 1)) (hi_of p q 3 rfl) rfl

/-! ## A reduce by "and" of ones -/

/-- A left fold by "and" from 1 over words that are all 1 is 1. -/
theorem foldl_andi_of_all_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_of_all_one f l (fun n hn => h n (List.mem_cons_of_mem _ hn))

/-- `jnp.all` of an all-ones array: a reduce by "and" from the constant 1 whose operand is 1 everywhere is 1 everywhere. -/
theorem reduce_andi_of_all_one {s t u : Shape} {axes : List (Fin s.rank)} (x : s.Idx → BitVec 1) (init : u.Idx → BitVec 1)
    (h : s.ReducesTo axes t) (hu : 0 < u.numel) (j : t.Idx) (hx : ∀ i, x i = 1#1) (hinit : ∀ k, init k = 1#1) :
    Host.reduce IntOp.andi x init h hu j = 1#1 := by
  rw [Host.reduce_eq_foldl, hinit]
  exact foldl_andi_of_all_one x _ (fun i _ => hx i)

end Cert.Join4

end
-- ==== Proof.RefIs.lean ====
/-
  The reference's result, read at an index, on indices that name a channel.

  The reference perturbs ONE channel per batch and position: it takes `pert[b, idx[b, l], 0, l]` (NaN where `idx`
  names no channel, negative indices wrapped first) and scatter-adds it into `x` at `(b, idx[b, l], 0, l)`. When every
  index is in `[0, 256)` nothing wraps, nothing is NaN and nothing is dropped: the index vector of update `(b, l)` is
  `(b, idx (b, l), 0, l)`, so at most one update meets an element, and the result at `(b, e, 0, l)` is
  `x + (if idx (b, l) = e then (u·2 − 1)·γ else 0)`, the taken value being the perturbation of channel `e` itself.
-/
import proofs.«122675_j30674656428480_1_alg».proof.Proof.RefRead
import proofs.«122675_j30674656428480_1_alg».proof.Proof.LibPointScatter
import proofs.«122675_j30674656428480_1_alg».proof.Proof.LibBatchedTake
import proofs.«122675_j30674656428480_1_alg».proof.Proof.LibJoin4
import Idealize.ShloMosaic.Lib.ValueIdx
import Idealize.ShloMosaic.Lib.Affine

noncomputable section

namespace Cert.ReferenceIdeal.RefIs

open Cert.ReferenceIdeal Cert.ReferenceIdeal.ReadP
open Idealize.ShloMosaic Idealize.ShloMosaic.ValueIdx Idealize.ShloMosaic.Pipeline
open Cert.PointScatter Cert.BatchedTake Cert.Join4

variable {F : FTy → Type} [FloatOps F]

/-! ## Words -/

theorem toInt_lt128 : ∀ p : Fin 128, (BitVec.ofNat 32 p.val).toInt = (p.val : Int) := by decide +kernel
theorem toInt_lt256 : ∀ e : Fin 256, (BitVec.ofNat 32 e.val).toInt = (e.val : Int) := by decide +kernel
theorem toInt_lt1024 : ∀ q : Fin 1024, (BitVec.ofNat 32 q.val).toInt = (q.val : Int) := by decide +kernel

/-- A batch counter is never negative, so wrapping it by 128 leaves it. -/
theorem wrap128 : ∀ p : Fin 128, Scalar.select (IntOp.cmpi .slt (BitVec.ofNat 32 p.val) 0#32)
    (IntOp.addi (BitVec.ofNat 32 p.val) 128#32) (BitVec.ofNat 32 p.val) = BitVec.ofNat 32 p.val := by decide +kernel
/-- A position counter is never negative, so wrapping it by 1024 leaves it. -/
theorem wrap1024 : ∀ q : Fin 1024, Scalar.select (IntOp.cmpi .slt (BitVec.ofNat 32 q.val) 0#32)
    (IntOp.addi (BitVec.ofNat 32 q.val) 1024#32) (BitVec.ofNat 32 q.val) = BitVec.ofNat 32 q.val := by decide +kernel

/-- A nonnegative word is not wrapped. -/
theorem wrap_nonneg (w a : BitVec 32) (h : 0 ≤ w.toInt) : Scalar.select (IntOp.cmpi .slt w 0#32) a w = w := by
  have h0 : IntOp.cmpi .slt w 0#32 = 0#1 := eq_zero_of_ne_one (fun h1 => by
    rw [IntOp.cmpi_slt, show (0#32 : BitVec 32).toInt = 0 from by decide] at h1; omega)
  rw [h0, select_zero]

/-- A word in `[0, 256)` passes the take's range test `0 ≤ w ≤ 255`. -/
theorem in_range (w : BitVec 32) (h : 0 ≤ w.toInt ∧ w.toInt < 256) :
    IntOp.andi (IntOp.cmpi .sge w 0#32) (IntOp.cmpi .sle w 255#32) = 1#1 := by
  rw [IntOp.andi_eq_one, IntOp.cmpi_sge, IntOp.cmpi_sle, show (0#32 : BitVec 32).toInt = 0 from by decide,
    show (255#32 : BitVec 32).toInt = 255 from by decide]
  omega

/-! ## The scatter's coordinate arrays at `(p, q, 0)` -/

theorem v32_at (p : Fin 128) (q : Fin 1024) : val_main_v32 (F := F) (ix3 p q (0 : Fin 1)) = BitVec.ofNat 32 p.val := by
  simp only [val_main_v32_apply, val_main_v28_apply, val_main_v17_apply, val_main_v14_apply, val_main_v16_apply,
    val_main_v10_apply, val_main_v9_apply, val_main_v13_apply, val_main_c_apply, val_main_v15_apply, val_main_c_2_apply]
  exact wrap128 p

theorem v33_at (x2 : IVec S128x1024 32) (hx : ∀ i, 0 ≤ (x2 i).toInt ∧ (x2 i).toInt < 256) (p : Fin 128) (q : Fin 1024) :
    val_main_v33 (F := F) x2 (ix3 p q (0 : Fin 1)) = x2 (ix2 p q) := by
  have e : idx_main_v33 (ix3 p q (0 : Fin 1)) = ix2 p q :=
    funext fun a => Fin.ext (by match a with | ⟨0, _⟩ => rfl | ⟨1, _⟩ => rfl)
  simp only [val_main_v33_apply, val_main_v22_apply, val_main_v19_apply, val_main_v21_apply, val_main_v18_apply,
    val_main_c_3_apply, val_main_v20_apply, val_main_c_4_apply, e]
  exact wrap_nonneg _ _ (hx _).1

theorem v34_at (p : Fin 128) (q : Fin 1024) : val_main_v34 (F := F) (ix3 p q (0 : Fin 1)) = 0#32 := by
  simp only [val_main_v34_apply, val_main_v31_apply, val_main_v29_apply, val_main_c_7_apply]

theorem v35_at (p : Fin 128) (q : Fin 1024) : val_main_v35 (F := F) (ix3 p q (0 : Fin 1)) = BitVec.ofNat 32 q.val := by
  simp only [val_main_v35_apply, val_main_v30_apply, val_main_v27_apply, val_main_v24_apply, val_main_v26_apply,
    val_main_v12_apply, val_main_v11_apply, val_main_v23_apply, val_main_c_5_apply, val_main_v25_apply, val_main_c_6_apply]
  exact wrap1024 q

/-! ## The index vectors -/

theorem v36_0 (x2 : IVec S128x1024 32) (p : Fin 128) (q : Fin 1024) :
    val_main_v36 (F := F) x2 (ix3 p q (0 : Fin 4)) = BitVec.ofNat 32 p.val := by
  unfold val_main_v36
  exact (join4_0 _ _ _ _ _ p q).trans (v32_at p q)

theorem v36_1 (x2 : IVec S128x1024 32) (hx : ∀ i, 0 ≤ (x2 i).toInt ∧ (x2 i).toInt < 256) (p : Fin 128) (q : Fin 1024) :
    val_main_v36 (F := F) x2 (ix3 p q (1 : Fin 4)) = x2 (ix2 p q) := by
  unfold val_main_v36
  exact (join4_1 _ _ _ _ _ p q).trans (v33_at x2 hx p q)

theorem v36_2 (x2 : IVec S128x1024 32) (p : Fin 128) (q : Fin 1024) :
    val_main_v36 (F := F) x2 (ix3 p q (2 : Fin 4)) = 0#32 := by
  unfold val_main_v36
  exact (join4_2 _ _ _ _ _ p q).trans (v34_at p q)

theorem v36_3 (x2 : IVec S128x1024 32) (p : Fin 128) (q : Fin 1024) :
    val_main_v36 (F := F) x2 (ix3 p q (3 : Fin 4)) = BitVec.ofNat 32 q.val := by
  unfold val_main_v36
  exact (join4_3 _ _ _ _ _ p q).trans (v35_at p q)

/-! ## The take -/

/-- The take's index array, as `[128, 1, 1024, 1]`, is the index array itself where it is not negative. -/
theorem c5_at (x2 : IVec S128x1024 32) (hx : ∀ i, 0 ≤ (x2 i).toInt ∧ (x2 i).toInt < 256) (i : S128x1x1024x1.Idx) :
    val_main_call0_v5 (F := F) x2 i = x2 (idx_main_v6 (idx_main_call0_v5 i)) := by
  simp only [val_main_call0_v5_apply, val_main_call0_v4_apply, val_main_call0_v1_apply, val_main_call0_v3_apply,
    val_main_v6_apply, val_main_call0_v0_apply, val_main_call0_c_apply, val_main_call0_v2_apply, val_main_call0_c_0_apply]
  exact wrap_nonneg _ _ (hx _).1

/-- Every index names a channel. -/
theorem c11_at (x2 : IVec S128x1024 32) (hx : ∀ i, 0 ≤ (x2 i).toInt ∧ (x2 i).toInt < 256) (i : S128x1x1024x1.Idx) :
    val_main_call0_v11 (F := F) x2 i = 1#1 := by
  simp only [val_main_call0_v11_apply, val_main_call0_v7_apply, val_main_call0_v10_apply, val_main_call0_v6_apply,
    val_main_call0_c_2_apply, val_main_call0_v9_apply, val_main_call0_v8_apply, val_main_call0_c_1_apply]
  rw [c5_at x2 hx]
  exact in_range _ (hx _)

/-- So the take's NaN fill is never selected: the taken value is the gathered one. -/
theorem v7_at (x1 : FVec F S128x256x1x1024 .f32) (x2 : IVec S128x1024 32) (hx : ∀ i, 0 ≤ (x2 i).toInt ∧ (x2 i).toInt < 256)
    (i : S128x1x1x1024.Idx) :
    val_main_v7 (F := F) x1 x2 i = val_main_call0_v13 (F := F) x1 x2 i := by
  rw [val_main_v7_apply, val_main_call0_v14_apply]
  have h12 : val_main_call0_v12 (F := F) x2 (idx_main_call0_v14 i) = 1#1 := by
    unfold val_main_call0_v12
    exact reduce_andi_of_all_one _ _ _ _ _ (c11_at x2 hx) (fun _ => rfl)
  rw [h12, select_one]

/-- The taken value of batch `b`, position `l`: the perturbation array at the channel the index names. -/
theorem v8_at (x1 : FVec F S128x256x1x1024 .f32) (x2 : IVec S128x1024 32) (hx : ∀ i, 0 ≤ (x2 i).toInt ∧ (x2 i).toInt < 256)
    (b : Fin 128) (l : Fin 1024) (e : Fin 256) (he : (x2 (ix2 b l)).toInt = (e.val : Int)) (z : Fin 1) :
    val_main_v8 (F := F) x1 x2 (ix2 b l) = val_main_v5 (F := F) x1 (ix4 b e z l) := by
  have e8 : idx_main_v8 (ix2 b l) = ix4 b (0 : Fin 1) (0 : Fin 1) l := by
    funext a; refine Fin.ext ?_
    have hb := b.isLt; have hl := l.isLt
    match a with
    | ⟨0, _⟩ => show (b.val * 1024 + l.val) / 1024 = b.val; omega
    | ⟨1, _⟩ => rfl
    | ⟨2, _⟩ => rfl
    | ⟨3, _⟩ => show (b.val * 1024 + l.val) % 1024 = l.val; omega
  rw [val_main_v8_apply, e8, v7_at x1 x2 hx]
  unfold val_main_call0_v13
  show Host.gather (channelTake 128 256 1024 Facts₀.gather_S128x256x1x1024_S128x1x1024x1_S128x1x1x1024_2_1_03_02_1_3_1111_wf)
      (val_main_v5 (F := F) x1) (val_main_call0_v5 (F := F) x2) (ix4 b (0 : Fin 1) (0 : Fin 1) l) = _
  rw [gather_channel_apply (by decide : 0 < 256)]
  have ez : z = 0 := Subsingleton.elim _ _
  subst ez
  refine congrArg _ ?_
  have hc : channelOf (by decide : 0 < 256) (val_main_call0_v5 (F := F) x2) b (0 : Fin 1) l = e := by
    refine Fin.ext ?_
    show min (val_main_call0_v5 (F := F) x2 (ix4 b (0 : Fin 1) l (0 : Fin 1))).toInt.toNat (256 - 1) = e.val
    rw [c5_at x2 hx]
    have e5 : idx_main_v6 (idx_main_call0_v5 (ix4 b (0 : Fin 1) l (0 : Fin 1))) = ix2 b l := by
      funext a; refine Fin.ext ?_
      have hb := b.isLt; have hl := l.isLt
      match a with
      | ⟨0, _⟩ => show (((b.val * 1 + 0) * 1024 + l.val) * 1 + 0) / 1024 = b.val; omega
      | ⟨1, _⟩ => show (((b.val * 1 + 0) * 1024 + l.val) * 1 + 0) % 1024 = l.val; omega
    rw [e5, he]
    have := e.isLt
    omega
  rw [hc]

/-! ## The result at an index -/

/-- THE REFERENCE AT `(b, e, 0, l)`: `x` plus, when the index of `(b, l)` is `e`, the perturbation of that element. -/
theorem ref_apply (x0 x1 : FVec Ideal S128x256x1x1024 .f32) (x2 : IVec S128x1024 32)
    (hx : ∀ i, 0 ≤ (x2 i).toInt ∧ (x2 i).toInt < 256) (b : Fin 128) (e : Fin 256) (z : Fin 1) (l : Fin 1024) :
    val_main_v37 (F := Ideal) x0 x1 x2 (ix4 b e z l)
      = x0 (ix4 b e z l) + if (x2 (ix2 b l)).toInt = (e.val : Int) then val_main_v5 (F := Ideal) x1 (ix4 b e z l) else 0 := by
  unfold val_main_v37
  show Host.scatterAdd (pointScatter 128 256 1 1024 128 1024 Facts₀.scatter_S128x256x1x1024_S128x1024x4_S128x1024_n_0123_0123_2_wf)
      x0 (val_main_v36 (F := Ideal) x2) (val_main_v8 (F := Ideal) x1 x2) (ix4 b e z l) = _
  rw [scatterAdd_channel_apply _ x0 (val_main_v36 (F := Ideal) x2) (val_main_v8 (F := Ideal) x1 x2)
    (fun p q => by rw [v36_0, toInt_lt128]) (fun p q => by rw [v36_2]; decide) (fun p q => by rw [v36_3, toInt_lt1024]) b e z l]
  rw [v36_1 x2 hx]
  by_cases hP : (x2 (ix2 b l)).toInt = (e.val : Int)
  · rw [if_pos hP, if_pos hP, v8_at x1 x2 hx b l e hP z]
  · rw [if_neg hP, if_neg hP]

end Cert.ReferenceIdeal.RefIs

end
-- ==== Proof.Bridge.lean ====
/-
  The two programs compute one function.

  At `(b, e, 0, l)` the kernel's result is `x + (if idx (b, l) = e then (u·2 − 1)·γ else 0)`, the test being an equality
  of 32-bit words between the index and the channel counter; the reference's is the same sum with the test read as an
  equality of signed integers. For a channel `e < 256` the two tests agree, the kernel's `+0.0` fill is the real 0 the
  scatter adds where no update lands, and re-laying `x` and `u` without their unit axis does not move an element.
  Only `+`, `·`, `−` of the same operands in the same order occur on both sides: no finiteness is used.
-/
import proofs.«122675_j30674656428480_1_alg».proof.Proof.KernelRun
import proofs.«122675_j30674656428480_1_alg».proof.Proof.RefIs
import Idealize.ShloMosaic.PureOps.Ideal.Laws

noncomputable section

namespace Cert.Bridge

open Idealize.ShloMosaic Idealize.ShloMosaic.ValueIdx Idealize.ShloMosaic.Pipeline
open Cert.KernelIdeal.Arr Cert.KernelIdeal.Block Cert.KernelIdeal.Run Cert.ReferenceIdeal.RefIs Cert.ReferenceIdeal.ReadP

/-- The reference's perturbation array at an element is the kernel's perturbation of that element. -/
theorem pert_eq (x1 : FVec Ideal Cert.ReferenceIdeal.S128x256x1x1024 .f32) (i : Cert.ReferenceIdeal.S128x256x1x1024.Idx) :
    val_main_v5 (F := Ideal) x1 i = pert (F := Ideal) (x1 i) := by
  simp only [val_main_v5_apply, val_main_v3_apply, val_main_v1_apply, val_main_v0_apply, val_main_cst_apply,
    val_main_v2_apply, val_main_cst_0_apply, val_main_v4_apply, val_main_cst_1_apply]
  rfl

/-- THE KERNEL'S RESULT IS THE REFERENCE'S, where every index names a channel. -/
theorem out_eq (x0 x1 : FVec Ideal Cert.ReferenceIdeal.S128x256x1x1024 .f32) (x2 : IVec Cert.ReferenceIdeal.S128x1024 32)
    (hx : ∀ i, 0 ≤ (x2 i).toInt ∧ (x2 i).toInt < 256) :
    KOut (F := Ideal) x0 x1 x2 = val_main_v37 (F := Ideal) x0 x1 x2 := by
  funext i
  obtain ⟨b, e, z, l, rfl⟩ : ∃ (b : Fin 128) (e : Fin 256) (z : Fin 1) (l : Fin 1024), i = ix4 b e z l :=
    ⟨i 0, i 1, i 2, i 3, eq_ix4 i⟩
  rw [ref_apply x0 x1 x2 hx]
  unfold KOut
  rw [broadcastInDim_apply _ _ _ (ix4 b e z l) (ix3 b e l) (fun a => by
    match a with
    | ⟨0, _⟩ => show b.val = if (128 : Nat) = 1 then 0 else b.val; rw [if_neg (by decide)]
    | ⟨1, _⟩ => show e.val = if (256 : Nat) = 1 then 0 else e.val; rw [if_neg (by decide)]
    | ⟨2, _⟩ => show l.val = if (1024 : Nat) = 1 then 0 else l.val; rw [if_neg (by decide)])]
  show Gat _ _ x2 b e l = _
  unfold Gat
  have hz := z.isLt
  rw [shapeCast_apply x0 _ (ix3 b e l) (ix4 b e z l) (by
      rewrite [Shape.rowMajor_val_four, Shape.rowMajor_val_three]
      show ((b.val * 256 + e.val) * 1 + z.val) * 1024 + l.val = (b.val * 256 + e.val) * 1024 + l.val
      omega),
    shapeCast_apply x1 _ (ix3 b e l) (ix4 b e z l) (by
      rewrite [Shape.rowMajor_val_four, Shape.rowMajor_val_three]
      show ((b.val * 256 + e.val) * 1 + z.val) * 1024 + l.val = (b.val * 256 + e.val) * 1024 + l.val
      omega)]
  rw [Ideal.addf_def]
  congr 1
  by_cases hP : (x2 (ix2 b l)).toInt = (e.val : Int)
  · have hw : x2 (ix2 b l) = BitVec.ofNat 32 e.val := BitVec.eq_of_toInt_eq (hP.trans (toInt_lt256 e).symm)
    rw [if_pos hP, IntOp.cmpi_eq.mpr hw, select_one, pert_eq]
  · have hw : ¬ x2 (ix2 b l) = BitVec.ofNat 32 e.val := fun h => hP (by rw [h]; exact toInt_lt256 e)
    rw [if_neg hP, eq_zero_of_ne_one (fun h1 => hw (IntOp.cmpi_eq.mp h1)), select_zero]
    exact Ideal.ofBits_zero_f32

end Cert.Bridge

end
-- ==== Proof.lean ====
/-
  A one-hot perturbation, two ways.

  For `x, u : [128, 256, 1, 1024]` and an index array `idx : [128, 1024]` the result is
  `out[b, e, 0, l] = x[b, e, 0, l] + (if idx[b, l] = e then (u[b, e, 0, l]·2 − 1)·γ else 0)`.
  The kernel computes it densely, block by block: a compare of the index (laid along the channel axis) with the channel
  counter, a select between the perturbation and zero, one add. The reference computes it sparsely: it takes the
  perturbation at the named channel and scatter-adds it into `x`; since update `(b, l)` lands at `(b, idx[b, l], 0, l)`,
  at most one update meets an element. The two agree wherever every index names a channel, `0 ≤ idx < 256` — the
  precondition's added conjunct: jnp wraps a negative index to another channel, which the dense compare never matches.
  On the extended reals both sides are the same `+`, `·`, `−` of the same operands, so finiteness of `x` and `u` is not used.

  Frames: the kernel's two programs by the frame run of their region and the lines around it; the reference's by its
  run with the result dropped. `preserves` asks nothing: the idealization rewrote no operation.
-/
import proofs.«122675_j30674656428480_1_alg».proof.Defs
import proofs.«122675_j30674656428480_1_alg».proof.Proof.Gen.Kernel
import proofs.«122675_j30674656428480_1_alg».proof.Proof.Gen.KernelIdeal
import proofs.«122675_j30674656428480_1_alg».proof.Proof.Gen.ReferenceIdeal
import proofs.«122675_j30674656428480_1_alg».proof.Proof.Gen.Pre_finite_inputs
import proofs.«122675_j30674656428480_1_alg».proof.Proof.FrameKernel
import proofs.«122675_j30674656428480_1_alg».proof.Proof.FrameKernelIdeal
import proofs.«122675_j30674656428480_1_alg».proof.Proof.KernelRun
import proofs.«122675_j30674656428480_1_alg».proof.Proof.RefRun
import proofs.«122675_j30674656428480_1_alg».proof.Proof.PreRange
import proofs.«122675_j30674656428480_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- The kernel's program ends at `KOut` of its arguments, the reference's at its last stage of arguments that agree with
    them; under the precondition every index names a channel, and there the two are one function. -/
theorem algebraic : Cert.algebraic_KernelIdeal_ReferenceIdeal := by
  intro m ρ m' ρ' hpre hagree
  refine ⟨_, Cert.KernelIdeal.Run.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact (Cert.Bridge.out_eq _ _ _ (Cert.Pre_finite_inputs.Range.idx_in_range _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
